-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S100000x100 : Shape := ⟨2, ![100000, 100]⟩
abbrev S50000x100 : Shape := ⟨2, ![50000, 100]⟩
abbrev S100000x64 : Shape := ⟨2, ![100000, 64]⟩
abbrev S50000x64 : Shape := ⟨2, ![50000, 64]⟩
abbrev S12800x128 : Shape := ⟨2, ![12800, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S50000x100 : S_.BroadcastsInDim S50000x100 (![] : Fin 0 → Fin S50000x100.rank)
  reducesTo_S50000x100_S_d0_1 : S50000x100.ReducesTo [0, 1] S_
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S12800x128 : S_.BroadcastsInDim S12800x128 (![] : Fin 0 → Fin S12800x128.rank)
  reducesTo_S12800x128_S_d0_1 : S12800x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg8 : FVec F S12800x128 .f32) (main_arg9 : FVec F S128 .f32) (main_arg10 : FVec F S128x1 .f32) (main_arg11 : FVec F S1 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S12800x128 .f32 := Host.absf main_arg8
  let main_cst_6 : FVec F S_ .f32 := constant S_ .f32 0x7F800000#32
  let main_v20 : FVec F S12800x128 .f32 := broadcastInDim S12800x128 ![] bcast_S_S12800x128 main_cst_6
  let main_v21 : IVec S12800x128 1 := cmpf .olt main_v19 main_v20
  let main_c_7 : IVec S_ 1 := constantI S_ 1 1#1
  let main_v22 : IVec S_ 1 := (fun x v => Host.reduce IntOp.andi x v reducesTo_S12800x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg10
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg11 main_v33

def fn {F : FTy → Type} [FloatOps F] (main_arg0 : IVec S8192 32) (main_arg1 : IVec S8192 32) (main_arg2 : IVec S100000x100 32) (main_arg3 : IVec S50000x100 32) (main_arg4 : FVec F S100000x100 .f32) (main_arg5 : FVec F S50000x100 .f32) (main_arg6 : FVec F S100000x64 .f32) (main_arg7 : FVec F S50000x64 .f32) (main_arg8 : FVec F S12800x128 .f32) (main_arg9 : FVec F S128 .f32) (main_arg10 : FVec F S128x1 .f32) (main_arg11 : FVec F S1 .f32) : IVec S_ 1 :=
  let main_v0 : FVec F S100000x100 .f32 := Host.absf main_arg4
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S50000x100 .f32 := Host.absf main_arg5
  let main_cst_0 : FVec F S_ .f32 := constant S_ .f32 0x7F800000#32
  let main_v5 : FVec F S50000x100 .f32 := broadcastInDim S50000x100 ![] bcast_S_S50000x100 main_cst_0
  let main_v6 : IVec S50000x100 1 := cmpf .olt main_v4 main_v5
  let main_c_1 : IVec S_ 1 := constantI S_ 1 1#1
  let main_v7 : IVec S_ 1 := (fun x v => Host.reduce IntOp.andi x v reducesTo_S50000x100_S_d0_1 h_S_) main_v6 main_c_1
  let main_v8 : IVec S_ 1 := andi main_v3 main_v7
  let main_v9 : FVec F S100000x64 .f32 := Host.absf main_arg6
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S50000x64 .f32 := Host.absf main_arg7
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg8 main_arg9 main_arg10 main_arg11 main_v13 main_v16
-- ==== Kernel.lean ====
abbrev S8192 : Shape := ⟨1, ![8192]⟩
abbrev S100000x100 : Shape := ⟨2, ![100000, 100]⟩
abbrev S50000x100 : Shape := ⟨2, ![50000, 100]⟩
abbrev S100000x64 : Shape := ⟨2, ![100000, 64]⟩
abbrev S50000x64 : Shape := ⟨2, ![50000, 64]⟩
abbrev S12800x128 : Shape := ⟨2, ![12800, 128]⟩
abbrev S128 : Shape := ⟨1, ![128]⟩
abbrev S128x1 : Shape := ⟨2, ![128, 1]⟩
abbrev S1 : Shape := ⟨1, ![1]⟩
abbrev S_ : Shape := ⟨0, ![]⟩
abbrev S8192x1 : Shape := ⟨2, ![8192, 1]⟩
abbrev S8192x100 : Shape := ⟨2, ![8192, 100]⟩
abbrev S8192x100x1 : Shape := ⟨3, ![8192, 100, 1]⟩
abbrev S8192x100x64 : Shape := ⟨3, ![8192, 100, 64]⟩
abbrev S8192x100x100 : Shape := ⟨3, ![8192, 100, 100]⟩
abbrev S64x100x100 : Shape := ⟨3, ![64, 100, 100]⟩
abbrev S64x100x64 : Shape := ⟨3, ![64, 100, 64]⟩
abbrev S64x1 : Shape := ⟨2, ![64, 1]⟩
abbrev S64x6400 : Shape := ⟨2, ![64, 6400]⟩
abbrev S6400x128 : Shape := ⟨2, ![6400, 128]⟩
abbrev S64x128 : Shape := ⟨2, ![64, 128]⟩
abbrev S1x128 : Shape := ⟨2, ![1, 128]⟩
abbrev S1x1 : Shape := ⟨2, ![1, 1]⟩

abbrev nBuf : Space → Nat
  | .hbm => 74
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S100000x100, .i32⟩
  | .hbm, ⟨3, _⟩ => ⟨S50000x100, .i32⟩
  | .hbm, ⟨4, _⟩ => ⟨S100000x100, .f32⟩
  | .hbm, ⟨5, _⟩ => ⟨S50000x100, .f32⟩
  | .hbm, ⟨6, _⟩ => ⟨S100000x64, .f32⟩
  | .hbm, ⟨7, _⟩ => ⟨S50000x64, .f32⟩
  | .hbm, ⟨8, _⟩ => ⟨S12800x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000x64, .bf16⟩
  | .hbm, ⟨13, _⟩ => ⟨S50000x64, .bf16⟩
  | .hbm, ⟨14, _⟩ => ⟨S100000x100, .bf16⟩
  | .hbm, ⟨15, _⟩ => ⟨S50000x100, .bf16⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x100, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x100, .i32⟩
  | .hbm, ⟨34, _⟩ => ⟨S_, .i32⟩
  | .hbm, ⟨35, _⟩ => ⟨S8192x100, .i32⟩
  | .hbm, ⟨36, _⟩ => ⟨S8192x100, .i1⟩
  | .hbm, ⟨37, _⟩ => ⟨S_, .i32⟩
  | .hbm, ⟨38, _⟩ => ⟨S8192x100, .i32⟩
  | .hbm, ⟨39, _⟩ => ⟨S8192x100, .i32⟩
  | .hbm, ⟨40, _⟩ => ⟨S8192x100, .i32⟩
  | .hbm, ⟨41, _⟩ => ⟨S8192x100x1, .i32⟩
  | .hbm, ⟨42, _⟩ => ⟨S8192x100x64, .bf16⟩
  | .hbm, ⟨43, _⟩ => ⟨S_, .i32⟩
  | .hbm, ⟨44, _⟩ => ⟨S8192x100, .i32⟩
  | .hbm, ⟨45, _⟩ => ⟨S8192x100, .i1⟩
  | .hbm, ⟨46, _⟩ => ⟨S_, .i32⟩
  | .hbm, ⟨47, _⟩ => ⟨S8192x100, .i32⟩
  | .hbm, ⟨48, _⟩ => ⟨S8192x100, .i32⟩
  | .hbm, ⟨49, _⟩ => ⟨S8192x100, .i32⟩
  | .hbm, ⟨50, _⟩ => ⟨S8192x100x1, .i32⟩
  | .hbm, ⟨51, _⟩ => ⟨S8192x100x100, .bf16⟩
  | .hbm, ⟨52, _⟩ => ⟨S_, .i32⟩
  | .hbm, ⟨53, _⟩ => ⟨S8192x100, .i32⟩
  | .hbm, ⟨54, _⟩ => ⟨S8192x100, .i1⟩
  | .hbm, ⟨55, _⟩ => ⟨S_, .i32⟩
  | .hbm, ⟨56, _⟩ => ⟨S8192x100, .i32⟩
  | .hbm, ⟨57, _⟩ => ⟨S8192x100, .i32⟩
  | .hbm, ⟨58, _⟩ => ⟨S8192x100, .i32⟩
  | .hbm, ⟨59, _⟩ => ⟨S8192x100x1, .i32⟩
  | .hbm, ⟨60, _⟩ => ⟨S8192x100x64, .bf16⟩
  | .hbm, ⟨61, _⟩ => ⟨S_, .i32⟩
  | .hbm, ⟨62, _⟩ => ⟨S8192x100, .i32⟩
  | .hbm, ⟨63, _⟩ => ⟨S8192x100, .i1⟩
  | .hbm, ⟨64, _⟩ => ⟨S_, .i32⟩
  | .hbm, ⟨65, _⟩ => ⟨S8192x100, .i32⟩
  | .hbm, ⟨66, _⟩ => ⟨S8192x100, .i32⟩
  | .hbm, ⟨67, _⟩ => ⟨S8192x100, .i32⟩
  | .hbm, ⟨68, _⟩ => ⟨S8192x100x1, .i32⟩
  | .hbm, ⟨69, _⟩ => ⟨S8192x100x100, .bf16⟩
  | .hbm, ⟨70, _⟩ => ⟨S12800x128, .bf16⟩
  | .hbm, ⟨71, _⟩ => ⟨S128x1, .bf16⟩
  | .hbm, ⟨72, _⟩ => ⟨S8192x1, .f32⟩
  | .hbm, ⟨73, _⟩ => ⟨S8192, .f32⟩
  | .local _ .vmem, ⟨0, _⟩ => ⟨S64x100x100, .bf16⟩
  | .local _ .vmem, ⟨1, _⟩ => ⟨S64x100x100, .bf16⟩
  | .local _ .vmem, ⟨2, _⟩ => ⟨S64x100x64, .bf16⟩
  | .local _ .vmem, ⟨3, _⟩ => ⟨S64x100x64, .bf16⟩
  | .local _ .vmem, ⟨4, _⟩ => ⟨S64x100x100, .bf16⟩
  | .local _ .vmem, ⟨5, _⟩ => ⟨S64x100x100, .bf16⟩
  | .local _ .vmem, ⟨6, _⟩ => ⟨S64x100x64, .bf16⟩
  | .local _ .vmem, ⟨7, _⟩ => ⟨S64x100x64, .bf16⟩
  | .local _ .vmem, ⟨8, _⟩ => ⟨S12800x128, .bf16⟩
  | .local _ .vmem, ⟨9, _⟩ => ⟨S128, .f32⟩
  | .local _ .vmem, ⟨10, _⟩ => ⟨S128x1, .bf16⟩
  | .local _ .vmem, ⟨11, _⟩ => ⟨S1, .f32⟩
  | .local _ .vmem, ⟨12, _⟩ => ⟨S64x1, .f32⟩
  | .local _ .vmem, ⟨13, _⟩ => ⟨S64x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x100x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x100x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x100x100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x100x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S12800x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  bcast_S_S8192 : S_.BroadcastsInDim S8192 (![] : Fin 0 → Fin S8192.rank)
  bcast_S8192_S8192x1_0 : S8192.BroadcastsInDim S8192x1 (![0] : Fin 1 → Fin S8192x1.rank)
  bcast_S_S8192x100 : S_.BroadcastsInDim S8192x100 (![] : Fin 0 → Fin S8192x100.rank)
  bcast_S8192x100_S8192x100x1_0_1 : S8192x100.BroadcastsInDim S8192x100x1 (![0, 1] : Fin 2 → Fin S8192x100x1.rank)
  inb_S64x100x100_S64x100x100_0_0_0 : ∀ a, (![0, 0, 0] : Fin 3 → Nat) a + S64x100x100.size a ≤ S64x100x100.size a
  h_S64x100x100 : 0 < S64x100x100.numel
  shapeCasts_S64x100x100_S64x100x100 : S64x100x100.ShapeCasts S64x100x100
  inb_S64x100x64_S64x100x64_0_0_0 : ∀ a, (![0, 0, 0] : Fin 3 → Nat) a + S64x100x64.size a ≤ S64x100x64.size a
  h_S64x100x64 : 0 < S64x100x64.numel
  shapeCasts_S64x100x64_S64x100x64 : S64x100x64.ShapeCasts S64x100x64
  shapeCasts_S64x100x64_S64x6400 : S64x100x64.ShapeCasts S64x6400
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  slices_S12800x128_o0_0_S6400x128 : S12800x128.Slices ![0, 0] S6400x128
  slices_S12800x128_o6400_0_S6400x128 : S12800x128.Slices ![6400, 0] S6400x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S8192x1_S8192 : S8192x1.ShapeCasts S8192
  gather_S100000x100_S8192x1_S8192x100_1_0_n_n_0_1_1100_wf : GatherDims.WF S100000x100 S8192x1 S8192x100 [1] [0] [] [0] [] 1 ![1, 100]
  gather_S50000x100_S8192x1_S8192x100_1_0_n_n_0_1_1100_wf : GatherDims.WF S50000x100 S8192x1 S8192x100 [1] [0] [] [0] [] 1 ![1, 100]
  gather_S100000x64_S8192x100x1_S8192x100x64_2_0_n_n_0_2_164_wf : GatherDims.WF S100000x64 S8192x100x1 S8192x100x64 [2] [0] [] [0] [] 2 ![1, 64]
  gather_S100000x100_S8192x100x1_S8192x100x100_2_0_n_n_0_2_1100_wf : GatherDims.WF S100000x100 S8192x100x1 S8192x100x100 [2] [0] [] [0] [] 2 ![1, 100]
  gather_S50000x64_S8192x100x1_S8192x100x64_2_0_n_n_0_2_164_wf : GatherDims.WF S50000x64 S8192x100x1 S8192x100x64 [2] [0] [] [0] [] 2 ![1, 64]
  gather_S50000x100_S8192x100x1_S8192x100x100_2_0_n_n_0_2_1100_wf : GatherDims.WF S50000x100 S8192x100x1 S8192x100x100 [2] [0] [] [0] [] 2 ![1, 100]
  dot_S64x100x100_S64x100x64_S64x100x64_2_1_1_2_0_0_wf : DotDims.WF S64x100x100 S64x100x64 S64x100x64 [2] [1] [1] [2] [0] [0]
  dot_S64x6400_S6400x128_S64x128_1_0_0_1_n_n_wf : DotDims.WF S64x6400 S6400x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x100x100.size a ≤ S8192x100x100.size a
  hwx0_0 : ∀ i : grid0.Coords, EltTy.bits .bf16 = 32 ∨ (Rect.block (s := S8192x100x100) S64x100x100.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x100x64.size a ≤ S8192x100x64.size a
  hwx0_1 : ∀ i : grid0.Coords, EltTy.bits .bf16 = 32 ∨ (Rect.block (s := S8192x100x64) S64x100x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x100x100.size a ≤ S8192x100x100.size a
  hwx0_2 : ∀ i : grid0.Coords, EltTy.bits .bf16 = 32 ∨ (Rect.block (s := S8192x100x100) S64x100x100.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x100x64.size a ≤ S8192x100x64.size a
  hwx0_3 : ∀ i : grid0.Coords, EltTy.bits .bf16 = 32 ∨ (Rect.block (s := S8192x100x64) S64x100x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12800x128.size a ≤ S12800x128.size a
  hwx0_4 : ∀ i : grid0.Coords, EltTy.bits .bf16 = 32 ∨ (Rect.block (s := S12800x128) S12800x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S8192x1.size a
  hwx0_8 : ∀ i : grid0.Coords, EltTy.bits .f32 = 32 ∨ (Rect.block (s := S8192x1) S64x1.size (cc0_transform_8 i) (hinb0_8 i)).WholeWords (EltTy.packing .f32)

variable [Facts₀]

def gather_S100000x100_S8192x1_S8192x100_1_0_n_n_0_1_1100 : GatherDims S100000x100 S8192x1 S8192x100 where
  offsetDims := [1]
  collapsedSliceDims := [0]
  operandBatchingDims := []
  startIndicesBatchingDims := []
  startIndexMap := [0]
  indexVectorDim := 1
  sliceSizes := ![1, 100]
  wf := gather_S100000x100_S8192x1_S8192x100_1_0_n_n_0_1_1100_wf
def gather_S50000x100_S8192x1_S8192x100_1_0_n_n_0_1_1100 : GatherDims S50000x100 S8192x1 S8192x100 where
  offsetDims := [1]
  collapsedSliceDims := [0]
  operandBatchingDims := []
  startIndicesBatchingDims := []
  startIndexMap := [0]
  indexVectorDim := 1
  sliceSizes := ![1, 100]
  wf := gather_S50000x100_S8192x1_S8192x100_1_0_n_n_0_1_1100_wf
def gather_S100000x64_S8192x100x1_S8192x100x64_2_0_n_n_0_2_164 : GatherDims S100000x64 S8192x100x1 S8192x100x64 where
  offsetDims := [2]
  collapsedSliceDims := [0]
  operandBatchingDims := []
  startIndicesBatchingDims := []
  startIndexMap := [0]
  indexVectorDim := 2
  sliceSizes := ![1, 64]
  wf := gather_S100000x64_S8192x100x1_S8192x100x64_2_0_n_n_0_2_164_wf
def gather_S100000x100_S8192x100x1_S8192x100x100_2_0_n_n_0_2_1100 : GatherDims S100000x100 S8192x100x1 S8192x100x100 where
  offsetDims := [2]
  collapsedSliceDims := [0]
  operandBatchingDims := []
  startIndicesBatchingDims := []
  startIndexMap := [0]
  indexVectorDim := 2
  sliceSizes := ![1, 100]
  wf := gather_S100000x100_S8192x100x1_S8192x100x100_2_0_n_n_0_2_1100_wf
def gather_S50000x64_S8192x100x1_S8192x100x64_2_0_n_n_0_2_164 : GatherDims S50000x64 S8192x100x1 S8192x100x64 where
  offsetDims := [2]
  collapsedSliceDims := [0]
  operandBatchingDims := []
  startIndicesBatchingDims := []
  startIndexMap := [0]
  indexVectorDim := 2
  sliceSizes := ![1, 64]
  wf := gather_S50000x64_S8192x100x1_S8192x100x64_2_0_n_n_0_2_164_wf
def gather_S50000x100_S8192x100x1_S8192x100x100_2_0_n_n_0_2_1100 : GatherDims S50000x100 S8192x100x1 S8192x100x100 where
  offsetDims := [2]
  collapsedSliceDims := [0]
  operandBatchingDims := []
  startIndicesBatchingDims := []
  startIndexMap := [0]
  indexVectorDim := 2
  sliceSizes := ![1, 100]
  wf := gather_S50000x100_S8192x100x1_S8192x100x100_2_0_n_n_0_2_1100_wf
def dot_S64x100x100_S64x100x64_S64x100x64_2_1_1_2_0_0 : DotDims S64x100x100 S64x100x64 S64x100x64 where
  lhsContracting := [2]
  rhsContracting := [1]
  lhsNonContracting := [1]
  rhsNonContracting := [2]
  lhsBatch := [0]
  rhsBatch := [0]
  wf := dot_S64x100x100_S64x100x64_S64x100x64_2_1_1_2_0_0_wf
def dot_S64x6400_S6400x128_S64x128_1_0_0_1_n_n : DotDims S64x6400 S6400x128 S64x128 where
  lhsContracting := [1]
  rhsContracting := [0]
  lhsNonContracting := [0]
  rhsNonContracting := [1]
  lhsBatch := []
  rhsBatch := []
  wf := dot_S64x6400_S6400x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v31) S64x100x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S64x100x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S64x100x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S64x100x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S12800x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S64x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192 : Shape := ⟨1, ![8192]⟩
abbrev S100000x100 : Shape := ⟨2, ![100000, 100]⟩
abbrev S50000x100 : Shape := ⟨2, ![50000, 100]⟩
abbrev S100000x64 : Shape := ⟨2, ![100000, 64]⟩
abbrev S50000x64 : Shape := ⟨2, ![50000, 64]⟩
abbrev S12800x128 : Shape := ⟨2, ![12800, 128]⟩
abbrev S128 : Shape := ⟨1, ![128]⟩
abbrev S128x1 : Shape := ⟨2, ![128, 1]⟩
abbrev S1 : Shape := ⟨1, ![1]⟩
abbrev S_ : Shape := ⟨0, ![]⟩
abbrev S8192x1 : Shape := ⟨2, ![8192, 1]⟩
abbrev S8192x100 : Shape := ⟨2, ![8192, 100]⟩
abbrev S8192x100x1 : Shape := ⟨3, ![8192, 100, 1]⟩
abbrev S8192x100x64 : Shape := ⟨3, ![8192, 100, 64]⟩
abbrev S8192x100x100 : Shape := ⟨3, ![8192, 100, 100]⟩
abbrev S8192x6400 : Shape := ⟨2, ![8192, 6400]⟩
abbrev S8192x12800 : Shape := ⟨2, ![8192, 12800]⟩
abbrev S8192x128 : Shape := ⟨2, ![8192, 128]⟩
abbrev S1x128 : Shape := ⟨2, ![1, 128]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S100000x100, .i32⟩
  | .hbm, ⟨3, _⟩ => ⟨S50000x100, .i32⟩
  | .hbm, ⟨4, _⟩ => ⟨S100000x100, .f32⟩
  | .hbm, ⟨5, _⟩ => ⟨S50000x100, .f32⟩
  | .hbm, ⟨6, _⟩ => ⟨S100000x64, .f32⟩
  | .hbm, ⟨7, _⟩ => ⟨S50000x64, .f32⟩
  | .hbm, ⟨8, _⟩ => ⟨S12800x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x100, .i32⟩
  | .hbm, ⟨21, _⟩ => ⟨S_, .i32⟩
  | .hbm, ⟨22, _⟩ => ⟨S8192x100, .i32⟩
  | .hbm, ⟨23, _⟩ => ⟨S8192x100, .i1⟩
  | .hbm, ⟨24, _⟩ => ⟨S_, .i32⟩
  | .hbm, ⟨25, _⟩ => ⟨S8192x100, .i32⟩
  | .hbm, ⟨26, _⟩ => ⟨S8192x100, .i32⟩
  | .hbm, ⟨27, _⟩ => ⟨S8192x100, .i32⟩
  | .hbm, ⟨28, _⟩ => ⟨S8192x100x1, .i32⟩
  | .hbm, ⟨29, _⟩ => ⟨S8192x100x64, .f32⟩
  | .hbm, ⟨30, _⟩ => ⟨S_, .i32⟩
  | .hbm, ⟨31, _⟩ => ⟨S8192x100, .i32⟩
  | .hbm, ⟨32, _⟩ => ⟨S8192x100, .i1⟩
  | .hbm, ⟨33, _⟩ => ⟨S_, .i32⟩
  | .hbm, ⟨34, _⟩ => ⟨S8192x100, .i32⟩
  | .hbm, ⟨35, _⟩ => ⟨S8192x100, .i32⟩
  | .hbm, ⟨36, _⟩ => ⟨S8192x100, .i32⟩
  | .hbm, ⟨37, _⟩ => ⟨S8192x100x1, .i32⟩
  | .hbm, ⟨38, _⟩ => ⟨S8192x100x100, .f32⟩
  | .hbm, ⟨39, _⟩ => ⟨S8192x100x64, .f32⟩
  | .hbm, ⟨40, _⟩ => ⟨S8192x6400, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x100, .i32⟩
  | .hbm, ⟨50, _⟩ => ⟨S_, .i32⟩
  | .hbm, ⟨51, _⟩ => ⟨S8192x100, .i32⟩
  | .hbm, ⟨52, _⟩ => ⟨S8192x100, .i1⟩
  | .hbm, ⟨53, _⟩ => ⟨S_, .i32⟩
  | .hbm, ⟨54, _⟩ => ⟨S8192x100, .i32⟩
  | .hbm, ⟨55, _⟩ => ⟨S8192x100, .i32⟩
  | .hbm, ⟨56, _⟩ => ⟨S8192x100, .i32⟩
  | .hbm, ⟨57, _⟩ => ⟨S8192x100x1, .i32⟩
  | .hbm, ⟨58, _⟩ => ⟨S8192x100x64, .f32⟩
  | .hbm, ⟨59, _⟩ => ⟨S_, .i32⟩
  | .hbm, ⟨60, _⟩ => ⟨S8192x100, .i32⟩
  | .hbm, ⟨61, _⟩ => ⟨S8192x100, .i1⟩
  | .hbm, ⟨62, _⟩ => ⟨S_, .i32⟩
  | .hbm, ⟨63, _⟩ => ⟨S8192x100, .i32⟩
  | .hbm, ⟨64, _⟩ => ⟨S8192x100, .i32⟩
  | .hbm, ⟨65, _⟩ => ⟨S8192x100, .i32⟩
  | .hbm, ⟨66, _⟩ => ⟨S8192x100x1, .i32⟩
  | .hbm, ⟨67, _⟩ => ⟨S8192x100x100, .f32⟩
  | .hbm, ⟨68, _⟩ => ⟨S8192x100x64, .f32⟩
  | .hbm, ⟨69, _⟩ => ⟨S8192x6400, .f32⟩
  | .hbm, ⟨70, _⟩ => ⟨S8192x12800, .f32⟩
  | .hbm, ⟨71, _⟩ => ⟨S8192x128, .f32⟩
  | .hbm, ⟨72, _⟩ => ⟨S1x128, .f32⟩
  | .hbm, ⟨73, _⟩ => ⟨S8192x128, .f32⟩
  | .hbm, ⟨74, _⟩ => ⟨S8192x128, .f32⟩
  | .hbm, ⟨75, _⟩ => ⟨S_, .f32⟩
  | .hbm, ⟨76, _⟩ => ⟨S8192x128, .f32⟩
  | .hbm, ⟨77, _⟩ => ⟨S8192x128, .f32⟩
  | .hbm, ⟨78, _⟩ => ⟨S8192x1, .f32⟩
  | .hbm, ⟨79, _⟩ => ⟨S1x1, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x100 : S_.BroadcastsInDim S8192x100 (![] : Fin 0 → Fin S8192x100.rank)
  bcast_S8192x100_S8192x100x1_0_1 : S8192x100.BroadcastsInDim S8192x100x1 (![0, 1] : Fin 2 → Fin S8192x100x1.rank)
  shapeCasts_S8192x100x64_S8192x6400 : S8192x100x64.ShapeCasts S8192x6400
  concatenates_S8192x6400_S8192x6400_S8192x12800_d1 : Shape.Concatenates [S8192x6400, S8192x6400] S8192x12800 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  gather_S100000x100_S8192x1_S8192x100_1_0_n_n_0_1_1100_wf : GatherDims.WF S100000x100 S8192x1 S8192x100 [1] [0] [] [0] [] 1 ![1, 100]
  gather_S100000x64_S8192x100x1_S8192x100x64_2_0_n_n_0_2_164_wf : GatherDims.WF S100000x64 S8192x100x1 S8192x100x64 [2] [0] [] [0] [] 2 ![1, 64]
  gather_S100000x100_S8192x100x1_S8192x100x100_2_0_n_n_0_2_1100_wf : GatherDims.WF S100000x100 S8192x100x1 S8192x100x100 [2] [0] [] [0] [] 2 ![1, 100]
  dot_S8192x100x100_S8192x100x64_S8192x100x64_2_1_1_2_0_0_wf : DotDims.WF S8192x100x100 S8192x100x64 S8192x100x64 [2] [1] [1] [2] [0] [0]
  gather_S50000x100_S8192x1_S8192x100_1_0_n_n_0_1_1100_wf : GatherDims.WF S50000x100 S8192x1 S8192x100 [1] [0] [] [0] [] 1 ![1, 100]
  gather_S50000x64_S8192x100x1_S8192x100x64_2_0_n_n_0_2_164_wf : GatherDims.WF S50000x64 S8192x100x1 S8192x100x64 [2] [0] [] [0] [] 2 ![1, 64]
  gather_S50000x100_S8192x100x1_S8192x100x100_2_0_n_n_0_2_1100_wf : GatherDims.WF S50000x100 S8192x100x1 S8192x100x100 [2] [0] [] [0] [] 2 ![1, 100]
  dot_S8192x12800_S12800x128_S8192x128_1_0_0_1_n_n_wf : DotDims.WF S8192x12800 S12800x128 S8192x128 [1] [0] [0] [1] [] []
  dot_S8192x128_S128x1_S8192x1_1_0_0_1_n_n_wf : DotDims.WF S8192x128 S128x1 S8192x1 [1] [0] [0] [1] [] []

variable [Facts₀]

def gather_S100000x100_S8192x1_S8192x100_1_0_n_n_0_1_1100 : GatherDims S100000x100 S8192x1 S8192x100 where
  offsetDims := [1]
  collapsedSliceDims := [0]
  operandBatchingDims := []
  startIndicesBatchingDims := []
  startIndexMap := [0]
  indexVectorDim := 1
  sliceSizes := ![1, 100]
  wf := gather_S100000x100_S8192x1_S8192x100_1_0_n_n_0_1_1100_wf
def gather_S100000x64_S8192x100x1_S8192x100x64_2_0_n_n_0_2_164 : GatherDims S100000x64 S8192x100x1 S8192x100x64 where
  offsetDims := [2]
  collapsedSliceDims := [0]
  operandBatchingDims := []
  startIndicesBatchingDims := []
  startIndexMap := [0]
  indexVectorDim := 2
  sliceSizes := ![1, 64]
  wf := gather_S100000x64_S8192x100x1_S8192x100x64_2_0_n_n_0_2_164_wf
def gather_S100000x100_S8192x100x1_S8192x100x100_2_0_n_n_0_2_1100 : GatherDims S100000x100 S8192x100x1 S8192x100x100 where
  offsetDims := [2]
  collapsedSliceDims := [0]
  operandBatchingDims := []
  startIndicesBatchingDims := []
  startIndexMap := [0]
  indexVectorDim := 2
  sliceSizes := ![1, 100]
  wf := gather_S100000x100_S8192x100x1_S8192x100x100_2_0_n_n_0_2_1100_wf
def dot_S8192x100x100_S8192x100x64_S8192x100x64_2_1_1_2_0_0 : DotDims S8192x100x100 S8192x100x64 S8192x100x64 where
  lhsContracting := [2]
  rhsContracting := [1]
  lhsNonContracting := [1]
  rhsNonContracting := [2]
  lhsBatch := [0]
  rhsBatch := [0]
  wf := dot_S8192x100x100_S8192x100x64_S8192x100x64_2_1_1_2_0_0_wf
def gather_S50000x100_S8192x1_S8192x100_1_0_n_n_0_1_1100 : GatherDims S50000x100 S8192x1 S8192x100 where
  offsetDims := [1]
  collapsedSliceDims := [0]
  operandBatchingDims := []
  startIndicesBatchingDims := []
  startIndexMap := [0]
  indexVectorDim := 1
  sliceSizes := ![1, 100]
  wf := gather_S50000x100_S8192x1_S8192x100_1_0_n_n_0_1_1100_wf
def gather_S50000x64_S8192x100x1_S8192x100x64_2_0_n_n_0_2_164 : GatherDims S50000x64 S8192x100x1 S8192x100x64 where
  offsetDims := [2]
  collapsedSliceDims := [0]
  operandBatchingDims := []
  startIndicesBatchingDims := []
  startIndexMap := [0]
  indexVectorDim := 2
  sliceSizes := ![1, 64]
  wf := gather_S50000x64_S8192x100x1_S8192x100x64_2_0_n_n_0_2_164_wf
def gather_S50000x100_S8192x100x1_S8192x100x100_2_0_n_n_0_2_1100 : GatherDims S50000x100 S8192x100x1 S8192x100x100 where
  offsetDims := [2]
  collapsedSliceDims := [0]
  operandBatchingDims := []
  startIndicesBatchingDims := []
  startIndexMap := [0]
  indexVectorDim := 2
  sliceSizes := ![1, 100]
  wf := gather_S50000x100_S8192x100x1_S8192x100x100_2_0_n_n_0_2_1100_wf
def dot_S8192x12800_S12800x128_S8192x128_1_0_0_1_n_n : DotDims S8192x12800 S12800x128 S8192x128 where
  lhsContracting := [1]
  rhsContracting := [0]
  lhsNonContracting := [0]
  rhsNonContracting := [1]
  lhsBatch := []
  rhsBatch := []
  wf := dot_S8192x12800_S12800x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.RowScore.lean ====
/-
  One batch row of the model, as a function on the extended reals.

  For one row, `s k j` is the score the k-th neighbour gives the j-th and `e j d` the j-th neighbour's
  embedding.  The aggregated row is `agg s e k d = Σ_j s k j · e j d`; laid out flat, its entry (k, d) sits at
  position `64 k + d` (`flat`).  The user side and the item side give two flat rows `xu`, `xv` of length 6400.
  The hidden layer is `hidden n = max (Σ_c xu c · W1[c, n] + Σ_c xv c · W1[6400 + c, n] + b1[n]) 0` — the product
  of the joined row of length 12800 with W1, written as its two halves — and the row's result is
  `score = logistic (max (Σ_n hidden n · W2[n, 0] + b2[0]) 0)`.

  Two facts used on the way: a sum over 12800 positions is the sum over the first 6400 plus the sum over the last
  6400 (commutativity and associativity of addition only, so it holds whatever the terms, infinite ones included),
  and the binary32 word of 1.0 denotes the number 1.
-/
import Mathlib
import Idealize.ShloMosaic.PureOps.Ideal
import Idealize.ShloMosaic.Lib.ValueIdx

noncomputable section

namespace Cert.RowScore

open Idealize.ShloMosaic Idealize.ShloMosaic.ValueIdx

/-- Row k of the scores against column d of the embeddings. -/
def agg (s : Fin 100 → Fin 100 → EReal) (e : Fin 100 → Fin 64 → EReal) (k : Fin 100) (d : Fin 64) : EReal :=
  ∑ j : Fin 100, s k j * e j d

/-- The 100 × 64 aggregated row laid out flat: position c holds entry (c / 64, c % 64). -/
def flat (x : Fin 100 → Fin 64 → EReal) (c : Fin 6400) : EReal :=
  x ⟨c.val / 64, by have := c.isLt; omega⟩ ⟨c.val % 64, by omega⟩

/-- Hidden unit n of the row: the two halves of the joined row against the two halves of W1, the bias, the ramp. -/
def hidden (xu xv : Fin 6400 → EReal) (W1 : (⟨2, ![12800, 128]⟩ : Shape).Idx → EReal)
    (b1 : (⟨1, ![128]⟩ : Shape).Idx → EReal) (n : Fin 128) : EReal :=
  max (((∑ c : Fin 6400, xu c * W1 (ix2 (⟨c.val, by have := c.isLt; omega⟩ : Fin 12800) n))
        + (∑ c : Fin 6400, xv c * W1 (ix2 (⟨6400 + c.val, by have := c.isLt; omega⟩ : Fin 12800) n)))
      + b1 (ix1 n))
    (Ideal.ofBits .f32 0x00000000#32)

/-- The row's result. -/
def score (xu xv : Fin 6400 → EReal) (W1 : (⟨2, ![12800, 128]⟩ : Shape).Idx → EReal)
    (b1 : (⟨1, ![128]⟩ : Shape).Idx → EReal) (W2 : (⟨2, ![128, 1]⟩ : Shape).Idx → EReal)
    (b2 : (⟨1, ![1]⟩ : Shape).Idx → EReal) : EReal :=
  Ideal.logistic (max ((∑ n : Fin 128, hidden xu xv W1 b1 n * W2 (ix2 n (0 : Fin 1))) + b2 (ix1 (0 : Fin 1)))
    (Ideal.ofBits .f32 0x00000000#32))

/-- Row b of the batch, from the gathered score and embedding arrays of the two sides. -/
def rowScore (SU : (⟨3, ![8192, 100, 100]⟩ : Shape).Idx → EReal) (EU : (⟨3, ![8192, 100, 64]⟩ : Shape).Idx → EReal)
    (SV : (⟨3, ![8192, 100, 100]⟩ : Shape).Idx → EReal) (EV : (⟨3, ![8192, 100, 64]⟩ : Shape).Idx → EReal)
    (W1 : (⟨2, ![12800, 128]⟩ : Shape).Idx → EReal) (b1 : (⟨1, ![128]⟩ : Shape).Idx → EReal)
    (W2 : (⟨2, ![128, 1]⟩ : Shape).Idx → EReal) (b2 : (⟨1, ![1]⟩ : Shape).Idx → EReal) (b : Fin 8192) : EReal :=
  score (flat (agg (fun k j => SU (ix3 b k j)) (fun j d => EU (ix3 b j d))))
    (flat (agg (fun k j => SV (ix3 b k j)) (fun j d => EV (ix3 b j d)))) W1 b1 W2 b2

/-- The whole result: one number per batch row. -/
def scores (SU : (⟨3, ![8192, 100, 100]⟩ : Shape).Idx → EReal) (EU : (⟨3, ![8192, 100, 64]⟩ : Shape).Idx → EReal)
    (SV : (⟨3, ![8192, 100, 100]⟩ : Shape).Idx → EReal) (EV : (⟨3, ![8192, 100, 64]⟩ : Shape).Idx → EReal)
    (W1 : (⟨2, ![12800, 128]⟩ : Shape).Idx → EReal) (b1 : (⟨1, ![128]⟩ : Shape).Idx → EReal)
    (W2 : (⟨2, ![128, 1]⟩ : Shape).Idx → EReal) (b2 : (⟨1, ![1]⟩ : Shape).Idx → EReal) :
    (⟨1, ![8192]⟩ : Shape).Idx → EReal :=
  fun i => rowScore SU EU SV EV W1 b1 W2 b2 ⟨(i 0).val, (i 0).isLt⟩

/-- A sum over the joined row is the sum over its first half plus the sum over its second half. -/
theorem sum_halves {M : Type*} [AddCommMonoid M] (f : Fin 12800 → M) :
    ∑ k : Fin 12800, f k
      = (∑ c : Fin 6400, f ⟨c.val, by have := c.isLt; omega⟩)
        + ∑ c : Fin 6400, f ⟨6400 + c.val, by have := c.isLt; omega⟩ :=
  Fin.sum_univ_add (a := 6400) (b := 6400) f

/-- The binary32 word of 1.0 is the number 1. -/
theorem ofBits_one : Ideal.ofBits .f32 0x3F800000#32 = (1 : EReal) := by
  simp [Ideal.ofBits, Ideal.ieee, -EReal.coe_mul]
  norm_num

/-- The logistic function is the quotient of 1 by 1 + e^(-x), with the literal 1 spelt as its binary32 word. -/
theorem logistic_eq (x : EReal) :
    Ideal.logistic x
      = Ideal.div (Ideal.ofBits .f32 0x3F800000#32) (Ideal.ofBits .f32 0x3F800000#32 + Ideal.exp (-x)) := by
  rw [ofBits_one]; rfl

end Cert.RowScore

end
-- ==== Proof.EntryArrays.lean ====
/-
  What the region finds in the arrays it stages.

  Before the region the kernel's program rounds the four tables and the two weight matrices to bfloat16 and
  gathers, for every batch row, its hundred neighbours' score rows and embedding rows.  On the extended reals a
  change of float format is the identity, so the gathered arrays are exactly the ones the reference gathers from
  the unrounded tables (the same index arithmetic on the same integer inputs, the same gathers), and the rounded
  weight matrices are the weight matrices themselves.  Each array is read off the host operations in front of the
  region and compared with the reference's stage of the same name by unfolding both.
-/
import proofs.«177410_j57002805952924_2_alg».proof.Proof.Gen.KernelIdeal.Frame
import proofs.«177410_j57002805952924_2_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
/-- The user side's gathered score rows. -/
theorem scores_user (c : Dev nD) :
    V m c main_v31 = Cert.ReferenceIdeal.Read.val_main_v20 (F := Ideal) (m ((c : Thread nD τ).loc main_arg0)) (m ((c : Thread nD τ).loc main_arg2)) (m ((c : Thread nD τ).loc main_arg4)) := by
  show StableHlo.after hostOps0 (fun b => m (c, b)) (Proc.devRef .tc main_v31) = _
  after_results_simp
  rfl

set_option maxHeartbeats 4000000 in
/-- The user side's gathered embedding rows. -/
theorem embeddings_user (c : Dev nD) :
    V m c main_v24 = Cert.ReferenceIdeal.Read.val_main_v13 (F := Ideal) (m ((c : Thread nD τ).loc main_arg0)) (m ((c : Thread nD τ).loc main_arg2)) (m ((c : Thread nD τ).loc main_arg6)) := by
  show StableHlo.after hostOps0 (fun b => m (c, b)) (Proc.devRef .tc main_v24) = _
  after_results_simp
  rfl

set_option maxHeartbeats 4000000 in
/-- The item side's gathered score rows. -/
theorem scores_item (c : Dev nD) :
    V m c main_v45 = Cert.ReferenceIdeal.Read.val_main_v43 (F := Ideal) (m ((c : Thread nD τ).loc main_arg1)) (m ((c : Thread nD τ).loc main_arg3)) (m ((c : Thread nD τ).loc main_arg5)) := by
  show StableHlo.after hostOps0 (fun b => m (c, b)) (Proc.devRef .tc main_v45) = _
  after_results_simp
  rfl

set_option maxHeartbeats 4000000 in
/-- The item side's gathered embedding rows. -/
theorem embeddings_item (c : Dev nD) :
    V m c main_v38 = Cert.ReferenceIdeal.Read.val_main_v36 (F := Ideal) (m ((c : Thread nD τ).loc main_arg1)) (m ((c : Thread nD τ).loc main_arg3)) (m ((c : Thread nD τ).loc main_arg7)) := by
  show StableHlo.after hostOps0 (fun b => m (c, b)) (Proc.devRef .tc main_v38) = _
  after_results_simp
  rfl

set_option maxHeartbeats 4000000 in
/-- The first weight matrix, rounded: itself. -/
theorem weights_hidden (c : Dev nD) : V m c main_v46 = (m ((c : Thread nD τ).loc main_arg8)) := by
  show StableHlo.after hostOps0 (fun b => m (c, b)) (Proc.devRef .tc main_v46) = _
  after_results_simp
  rfl

set_option maxHeartbeats 4000000 in
/-- The second weight matrix, rounded: itself. -/
theorem weights_out (c : Dev nD) : V m c main_v47 = (m ((c : Thread nD τ).loc main_arg10)) := by
  show StableHlo.after hostOps0 (fun b => m (c, b)) (Proc.devRef .tc main_v47) = _
  after_results_simp
  rfl

end Cert.KernelIdeal.Entry

end
-- ==== Proof.BodyScore.lean ====
/-
  The value the kernel's body stores at a row of its block is the row specification.

  The body receives eight loaded blocks: for each of the 64 rows of the block, the user side's 100 × 100 scores and
  100 × 64 embeddings, the item side's, and the weights W1 (12800 × 128), b1 (128), W2 (128 × 1), b2 (1).  It forms
  the two aggregated blocks by a product batched over the rows, lays each out flat as a row of length 6400, multiplies
  the user row with the first 6400 rows of W1 and the item row with the last 6400, adds the two products and the bias,
  applies the ramp, multiplies with W2, adds its bias, applies the ramp and the logistic function.

  Every operation is exact on the extended reals and the format changes are the identity, so reading the stored value
  at row r is a matter of reading each operation at an index: a product into the zero accumulator is the sum over the
  contracted axis of the products of the operands' entries; the flat layout of a 100 × 64 row puts entry (k, d) at
  position 64 k + d; a slice of W1 from row 0 or row 6400 reads W1 at the row shifted by that offset; a bias broadcast
  over the rows reads the bias at the column.  Composed, these give exactly `Cert.RowScore.score` of the row's two
  flat aggregated halves.
-/
import proofs.«177410_j57002805952924_2_alg».proof.Proof.Gen.KernelIdeal.Skeleton
import proofs.«177410_j57002805952924_2_alg».proof.Proof.RowScore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen Cert.RowScore

/-! ## The product batched over the rows: [64, 100, 100] · [64, 100, 64] → [64, 100, 64], contracting the last axis
of the left operand with the middle axis of the right -/

/-- The left operand's index keeps the output's row, … -/
theorem aggDot_lhs_0 (i : S64x100x64.Idx) (q : dot_S64x100x100_S64x100x64_S64x100x64_2_1_1_2_0_0.contr.Idx) :
    (dot_S64x100x100_S64x100x64_S64x100x64_2_1_1_2_0_0.lhsIdx i q 0).val = (i 0).val := by
  unfold DotDims.lhsIdx
  rw [dif_pos (show (0 : Fin S64x100x100.rank) ∈ dot_S64x100x100_S64x100x64_S64x100x64_2_1_1_2_0_0.lhsBatch by decide)]
  rfl
/-- … keeps the output's middle coordinate, … -/
theorem aggDot_lhs_1 (i : S64x100x64.Idx) (q : dot_S64x100x100_S64x100x64_S64x100x64_2_1_1_2_0_0.contr.Idx) :
    (dot_S64x100x100_S64x100x64_S64x100x64_2_1_1_2_0_0.lhsIdx i q 1).val = (i 1).val := by
  unfold DotDims.lhsIdx
  rw [dif_neg (show ¬(1 : Fin S64x100x100.rank) ∈ dot_S64x100x100_S64x100x64_S64x100x64_2_1_1_2_0_0.lhsBatch by decide), dif_pos (show (1 : Fin S64x100x100.rank) ∈ dot_S64x100x100_S64x100x64_S64x100x64_2_1_1_2_0_0.lhsNonContracting by decide)]
  rfl
/-- … and runs over the contraction on its last axis. -/
theorem aggDot_lhs_2 (i : S64x100x64.Idx) (q : dot_S64x100x100_S64x100x64_S64x100x64_2_1_1_2_0_0.contr.Idx) :
    (dot_S64x100x100_S64x100x64_S64x100x64_2_1_1_2_0_0.lhsIdx i q 2).val = (q ⟨0, by decide⟩).val :=
  dot_S64x100x100_S64x100x64_S64x100x64_2_1_1_2_0_0.lhsIdx_val_of_single rfl i q
/-- The right operand's index keeps the output's row, … -/
theorem aggDot_rhs_0 (i : S64x100x64.Idx) (q : dot_S64x100x100_S64x100x64_S64x100x64_2_1_1_2_0_0.contr.Idx) :
    (dot_S64x100x100_S64x100x64_S64x100x64_2_1_1_2_0_0.rhsIdx i q 0).val = (i 0).val := by
  unfold DotDims.rhsIdx
  rw [dif_pos (show (0 : Fin S64x100x64.rank) ∈ dot_S64x100x100_S64x100x64_S64x100x64_2_1_1_2_0_0.rhsBatch by decide)]
  rfl
/-- … runs over the contraction on its middle axis, … -/
theorem aggDot_rhs_1 (i : S64x100x64.Idx) (q : dot_S64x100x100_S64x100x64_S64x100x64_2_1_1_2_0_0.contr.Idx) :
    (dot_S64x100x100_S64x100x64_S64x100x64_2_1_1_2_0_0.rhsIdx i q 1).val = (q ⟨0, by decide⟩).val :=
  dot_S64x100x100_S64x100x64_S64x100x64_2_1_1_2_0_0.rhsIdx_val_of_single rfl i q
/-- … and keeps the output's last coordinate. -/
theorem aggDot_rhs_2 (i : S64x100x64.Idx) (q : dot_S64x100x100_S64x100x64_S64x100x64_2_1_1_2_0_0.contr.Idx) :
    (dot_S64x100x100_S64x100x64_S64x100x64_2_1_1_2_0_0.rhsIdx i q 2).val = (i 2).val := by
  unfold DotDims.rhsIdx
  rw [dif_neg (show ¬(2 : Fin S64x100x64.rank) ∈ dot_S64x100x100_S64x100x64_S64x100x64_2_1_1_2_0_0.rhsBatch by decide), dif_pos (show (2 : Fin S64x100x64.rank) ∈ dot_S64x100x100_S64x100x64_S64x100x64_2_1_1_2_0_0.rhsNonContracting by decide)]
  rfl

/-- The batched product into the zero accumulator, read at (p, k, d): the sum over j of l[p, k, j] · r[p, j, d]. -/
theorem aggDot_apply (l : FVec Ideal S64x100x100 .bf16) (rr : FVec Ideal S64x100x64 .bf16)
    (p : Fin 64) (k : Fin 100) (d : Fin 64) :
    matmul dot_S64x100x100_S64x100x64_S64x100x64_2_1_1_2_0_0 none l rr (constant (F := Ideal) S64x100x64 .f32 0x00000000#32) (ix3 p k d)
      = ∑ j : Fin 100, l (ix3 p k j) * rr (ix3 p j d) := by
  refine (Ideal.matmul_constant_zero_apply dot_S64x100x100_S64x100x64_S64x100x64_2_1_1_2_0_0 none l rr (ix3 p k d)).trans ?_
  rw [← Equiv.sum_comp (ValueIdx.contrEquiv1 dot_S64x100x100_S64x100x64_S64x100x64_2_1_1_2_0_0 100 rfl rfl).symm]
  refine Finset.sum_congr rfl fun j _ => ?_
  have hj := ValueIdx.contrEquiv1_symm_val dot_S64x100x100_S64x100x64_S64x100x64_2_1_1_2_0_0 100 rfl rfl j
  have el : dot_S64x100x100_S64x100x64_S64x100x64_2_1_1_2_0_0.lhsIdx (ix3 p k d) ((ValueIdx.contrEquiv1 dot_S64x100x100_S64x100x64_S64x100x64_2_1_1_2_0_0 100 rfl rfl).symm j) = ix3 p k j := funext fun a => Fin.ext (by
    match a with
    | ⟨0, _⟩ => exact aggDot_lhs_0 _ _
    | ⟨1, _⟩ => exact aggDot_lhs_1 _ _
    | ⟨2, _⟩ => exact (aggDot_lhs_2 _ _).trans hj)
  have er : dot_S64x100x100_S64x100x64_S64x100x64_2_1_1_2_0_0.rhsIdx (ix3 p k d) ((ValueIdx.contrEquiv1 dot_S64x100x100_S64x100x64_S64x100x64_2_1_1_2_0_0 100 rfl rfl).symm j) = ix3 p j d := funext fun a => Fin.ext (by
    match a with
    | ⟨0, _⟩ => exact aggDot_rhs_0 _ _
    | ⟨1, _⟩ => exact (aggDot_rhs_1 _ _).trans hj
    | ⟨2, _⟩ => exact aggDot_rhs_2 _ _)
  rw [el, er]

/-! ## The two plain products: [64, 6400] · [6400, 128] → [64, 128] and [64, 128] · [128, 1] → [64, 1] -/

/-- The left operand's index keeps the output's row … -/
theorem hiddenDot_lhs_0 (i : S64x128.Idx) (q : dot_S64x6400_S6400x128_S64x128_1_0_0_1_n_n.contr.Idx) :
    (dot_S64x6400_S6400x128_S64x128_1_0_0_1_n_n.lhsIdx i q 0).val = (i 0).val := by
  unfold DotDims.lhsIdx
  rw [dif_neg (show ¬(0 : Fin S64x6400.rank) ∈ dot_S64x6400_S6400x128_S64x128_1_0_0_1_n_n.lhsBatch by decide), dif_pos (show (0 : Fin S64x6400.rank) ∈ dot_S64x6400_S6400x128_S64x128_1_0_0_1_n_n.lhsNonContracting by decide)]
  rfl
/-- … and runs over the contraction on its columns. -/
theorem hiddenDot_lhs_1 (i : S64x128.Idx) (q : dot_S64x6400_S6400x128_S64x128_1_0_0_1_n_n.contr.Idx) :
    (dot_S64x6400_S6400x128_S64x128_1_0_0_1_n_n.lhsIdx i q 1).val = (q ⟨0, by decide⟩).val :=
  dot_S64x6400_S6400x128_S64x128_1_0_0_1_n_n.lhsIdx_val_of_single rfl i q
/-- The right operand's index runs over the contraction on its rows … -/
theorem hiddenDot_rhs_0 (i : S64x128.Idx) (q : dot_S64x6400_S6400x128_S64x128_1_0_0_1_n_n.contr.Idx) :
    (dot_S64x6400_S6400x128_S64x128_1_0_0_1_n_n.rhsIdx i q 0).val = (q ⟨0, by decide⟩).val :=
  dot_S64x6400_S6400x128_S64x128_1_0_0_1_n_n.rhsIdx_val_of_single rfl i q
/-- … and keeps the output's column. -/
theorem hiddenDot_rhs_1 (i : S64x128.Idx) (q : dot_S64x6400_S6400x128_S64x128_1_0_0_1_n_n.contr.Idx) :
    (dot_S64x6400_S6400x128_S64x128_1_0_0_1_n_n.rhsIdx i q 1).val = (i 1).val := by
  unfold DotDims.rhsIdx
  rw [dif_neg (show ¬(1 : Fin S6400x128.rank) ∈ dot_S64x6400_S6400x128_S64x128_1_0_0_1_n_n.rhsBatch by decide), dif_pos (show (1 : Fin S6400x128.rank) ∈ dot_S64x6400_S6400x128_S64x128_1_0_0_1_n_n.rhsNonContracting by decide)]
  rfl

/-- A flat row against one half of W1, into the zero accumulator, read at (p, n): the sum over c of l[p, c] · r[c, n]. -/
theorem hiddenDot_apply (l : FVec Ideal S64x6400 .bf16) (rr : FVec Ideal S6400x128 .bf16) (p : Fin 64) (n : Fin 128) :
    matmul dot_S64x6400_S6400x128_S64x128_1_0_0_1_n_n none l rr (constant (F := Ideal) S64x128 .f32 0x00000000#32) (ix2 p n)
      = ∑ c : Fin 6400, l (ix2 p c) * rr (ix2 c n) := by
  refine (Ideal.matmul_constant_zero_apply dot_S64x6400_S6400x128_S64x128_1_0_0_1_n_n none l rr (ix2 p n)).trans ?_
  rw [← Equiv.sum_comp (ValueIdx.contrEquiv1 dot_S64x6400_S6400x128_S64x128_1_0_0_1_n_n 6400 rfl rfl).symm]
  refine Finset.sum_congr rfl fun c _ => ?_
  have hc := ValueIdx.contrEquiv1_symm_val dot_S64x6400_S6400x128_S64x128_1_0_0_1_n_n 6400 rfl rfl c
  have el : dot_S64x6400_S6400x128_S64x128_1_0_0_1_n_n.lhsIdx (ix2 p n) ((ValueIdx.contrEquiv1 dot_S64x6400_S6400x128_S64x128_1_0_0_1_n_n 6400 rfl rfl).symm c) = ix2 p c := funext fun a => Fin.ext (by
    match a with
    | ⟨0, _⟩ => exact hiddenDot_lhs_0 _ _
    | ⟨1, _⟩ => exact (hiddenDot_lhs_1 _ _).trans hc)
  have er : dot_S64x6400_S6400x128_S64x128_1_0_0_1_n_n.rhsIdx (ix2 p n) ((ValueIdx.contrEquiv1 dot_S64x6400_S6400x128_S64x128_1_0_0_1_n_n 6400 rfl rfl).symm c) = ix2 c n := funext fun a => Fin.ext (by
    match a with
    | ⟨0, _⟩ => exact (hiddenDot_rhs_0 _ _).trans hc
    | ⟨1, _⟩ => exact hiddenDot_rhs_1 _ _)
  rw [el, er]

/-- The left operand's index keeps the output's row … -/
theorem outDot_lhs_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
/-- … and runs over the contraction on its columns. -/
theorem outDot_lhs_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
/-- The right operand's index runs over the contraction on its rows … -/
theorem outDot_rhs_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
/-- … and keeps the output's column. -/
theorem outDot_rhs_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- The hidden layer against W2, into the zero accumulator, read at (p, z): the sum over n of l[p, n] · r[n, z]. -/
theorem outDot_apply (l : FVec Ideal S64x128 .bf16) (rr : FVec Ideal S128x1 .bf16) (p : Fin 64) (n : Fin 1) :
    matmul dot_S64x128_S128x1_S64x1_1_0_0_1_n_n none l rr (constant (F := Ideal) S64x1 .f32 0x00000000#32) (ix2 p n)
      = ∑ c : Fin 128, l (ix2 p c) * rr (ix2 c n) := by
  refine (Ideal.matmul_constant_zero_apply dot_S64x128_S128x1_S64x1_1_0_0_1_n_n none l rr (ix2 p n)).trans ?_
  rw [← Equiv.sum_comp (ValueIdx.contrEquiv1 dot_S64x128_S128x1_S64x1_1_0_0_1_n_n 128 rfl rfl).symm]
  refine Finset.sum_congr rfl fun c _ => ?_
  have hc := ValueIdx.contrEquiv1_symm_val dot_S64x128_S128x1_S64x1_1_0_0_1_n_n 128 rfl rfl c
  have el : dot_S64x128_S128x1_S64x1_1_0_0_1_n_n.lhsIdx (ix2 p n) ((ValueIdx.contrEquiv1 dot_S64x128_S128x1_S64x1_1_0_0_1_n_n 128 rfl rfl).symm c) = ix2 p c := funext fun a => Fin.ext (by
    match a with
    | ⟨0, _⟩ => exact outDot_lhs_0 _ _
    | ⟨1, _⟩ => exact (outDot_lhs_1 _ _).trans hc)
  have er : dot_S64x128_S128x1_S64x1_1_0_0_1_n_n.rhsIdx (ix2 p n) ((ValueIdx.contrEquiv1 dot_S64x128_S128x1_S64x1_1_0_0_1_n_n 128 rfl rfl).symm c) = ix2 c n := funext fun a => Fin.ext (by
    match a with
    | ⟨0, _⟩ => exact (outDot_rhs_0 _ _).trans hc
    | ⟨1, _⟩ => exact outDot_rhs_1 _ _)
  rw [el, er]

/-! ## The layout operations read at an index -/

/-- A [64, 100, 64] block laid out as [64, 6400] reads, at (p, c), the block at (p, c / 64, c % 64): both have
row-major position 6400 p + c. -/
theorem flatten_apply {α : Type} (x : S64x100x64.Idx → α) (h : S64x100x64.ShapeCasts S64x6400) (p : Fin 64) (c : Fin 6400) :
    shapeCast S64x6400 x h (ix2 p c)
      = x (ix3 p (⟨c.val / 64, by have := c.isLt; omega⟩ : Fin 100) (⟨c.val % 64, by omega⟩ : Fin 64)) :=
  shapeCast_apply x h _ _ (by
    rw [Shape.rowMajor_val_three, Shape.rowMajor_val_two]
    have hc := c.isLt
    show (p.val * 100 + c.val / 64) * 64 + c.val % 64 = p.val * 6400 + c.val
    omega)

/-- The first 6400 rows of W1: row c of the slice is row c of W1. -/
theorem lowerHalf_apply {α : Type} (X : S12800x128.Idx → α) (h : S12800x128.Slices ![0, 0] S6400x128) (c : Fin 6400) (n : Fin 128) :
    extractStridedSlice S6400x128 ![0, 0] X h (ix2 c n) = X (ix2 (⟨c.val, by have := c.isLt; omega⟩ : Fin 12800) n) :=
  slice2_axis0_apply 0 X h c n _ (Nat.zero_add _).symm

/-- The last 6400 rows of W1: row c of the slice is row 6400 + c of W1. -/
theorem upperHalf_apply {α : Type} (X : S12800x128.Idx → α) (h : S12800x128.Slices ![6400, 0] S6400x128) (c : Fin 6400) (n : Fin 128) :
    extractStridedSlice S6400x128 ![6400, 0] X h (ix2 c n) = X (ix2 (⟨6400 + c.val, by have := c.isLt; omega⟩ : Fin 12800) n) :=
  slice2_axis0_apply 6400 X h c n _ rfl

/-- The first bias, viewed as one row and repeated over the 64 rows, reads the bias at the column. -/
theorem bias1_apply {α : Type} (b : S128.Idx → α) (h1 : S128.ShapeCasts S1x128) (h2 : S1x128.Broadcasts S64x128) (p : Fin 64) (n : Fin 128) :
    broadcastTo S64x128 (shapeCast S1x128 b h1) h2 (ix2 p n) = b (ix1 n) :=
  (broadcastTo_1b_ab_apply _ h2 p n).trans (shapeCast_a_1a_apply b h1 0 n)

/-- The second bias, viewed as one row and repeated over the 64 rows, reads the bias at the column. -/
theorem bias2_apply {α : Type} (b : S1.Idx → α) (h1 : S1.ShapeCasts S1x1) (h2 : S1x1.Broadcasts S64x1) (p : Fin 64) (z : Fin 1) :
    broadcastTo S64x1 (shapeCast S1x1 b h1) h2 (ix2 p z) = b (ix1 z) :=
  (broadcastTo_1b_ab_apply _ h2 p z).trans (shapeCast_a_1a_apply b h1 0 z)

/-! ## The three stages of the body, each read at a row -/

/-- One side's aggregated block, laid out flat, read at row r and position c: the flat aggregated row. -/
theorem halfRow_apply (s : FVec Ideal S64x100x100 .bf16) (e : FVec Ideal S64x100x64 .bf16)
    (h0 : S64x100x100.ShapeCasts S64x100x100) (h1 : S64x100x64.ShapeCasts S64x100x64)
    (hb : FTy.bits .bf16 < FTy.bits .f32) (h2 : S64x100x64.ShapeCasts S64x6400) (r : Fin 64) (c : Fin 6400) :
    shapeCast S64x6400
        (truncf .bf16
          (matmul dot_S64x100x100_S64x100x64_S64x100x64_2_1_1_2_0_0 none (shapeCast S64x100x100 s h0) (shapeCast S64x100x64 e h1)
            (constant (F := Ideal) S64x100x64 .f32 0x00000000#32)) hb) h2 (ix2 r c)
      = flat (agg (fun k j => s (ix3 r k j)) (fun j d => e (ix3 r j d))) c := by
  rw [shapeCast_self, shapeCast_self]
  refine (flatten_apply _ h2 r c).trans ?_
  rw [truncf_apply]
  exact aggDot_apply s e r _ _

/-- The hidden layer read at (r, n): the two flat rows against the two halves of W1, the bias, the ramp. -/
theorem hidden_apply (u v : FVec Ideal S64x6400 .bf16) (W : FVec Ideal S12800x128 .bf16) (b : FVec Ideal S128 .f32)
    (hW : S12800x128.ShapeCasts S12800x128) (hs0 : S12800x128.Slices ![0, 0] S6400x128)
    (hs1 : S12800x128.Slices ![6400, 0] S6400x128) (h1 : S128.ShapeCasts S1x128) (h2 : S1x128.Broadcasts S64x128)
    (r : Fin 64) (n : Fin 128) :
    maximumf
        (addf
          (addf
            (matmul dot_S64x6400_S6400x128_S64x128_1_0_0_1_n_n none u (extractStridedSlice S6400x128 ![0, 0] (shapeCast S12800x128 W hW) hs0)
              (constant (F := Ideal) S64x128 .f32 0x00000000#32))
            (matmul dot_S64x6400_S6400x128_S64x128_1_0_0_1_n_n none v (extractStridedSlice S6400x128 ![6400, 0] (shapeCast S12800x128 W hW) hs1)
              (constant (F := Ideal) S64x128 .f32 0x00000000#32)))
          (broadcastTo S64x128 (shapeCast S1x128 b h1) h2))
        (broadcast S64x128 (Scalar.ofBits (F := Ideal) .f32 0x00000000#32)) (ix2 r n)
      = hidden (fun c => u (ix2 r c)) (fun c => v (ix2 r c)) W b n := by
  rw [shapeCast_self, maximumf_apply, addf_apply, addf_apply, broadcast_apply, hiddenDot_apply, hiddenDot_apply, bias1_apply]
  simp only [lowerHalf_apply, upperHalf_apply]
  rfl

/-- The last stage read at row r: the hidden layer against W2, the bias, the ramp, the logistic function. -/
theorem top_apply (hid : FVec Ideal S64x128 .f32) (W2 : FVec Ideal S128x1 .bf16) (b2 : FVec Ideal S1 .f32)
    (hb : FTy.bits .bf16 < FTy.bits .f32) (hW : S128x1.ShapeCasts S128x1) (h1 : S1.ShapeCasts S1x1)
    (h2 : S1x1.Broadcasts S64x1) (r : Fin 64) :
    logistic
        (maximumf
          (addf
            (matmul dot_S64x128_S128x1_S64x1_1_0_0_1_n_n none (truncf .bf16 hid hb) (shapeCast S128x1 W2 hW)
              (constant (F := Ideal) S64x1 .f32 0x00000000#32))
            (broadcastTo S64x1 (shapeCast S1x1 b2 h1) h2))
          (broadcast S64x1 (Scalar.ofBits (F := Ideal) .f32 0x00000000#32))) (ix2 r (0 : Fin 1))
      = Ideal.logistic
          (max ((∑ n : Fin 128, hid (ix2 r n) * W2 (ix2 n (0 : Fin 1))) + b2 (ix1 (0 : Fin 1)))
            (Ideal.ofBits .f32 0x00000000#32)) := by
  refine congrArg Ideal.logistic ?_
  rw [shapeCast_self, maximumf_apply, addf_apply, broadcast_apply, outDot_apply, bias2_apply]
  rfl

/-! ## The body's stored value at a row -/

/-- The value the body stores at row r of its block is the score of the row's two flat aggregated halves. -/
theorem body_score (x0 : FVec Ideal S64x100x100 .bf16) (x1 : FVec Ideal S64x100x64 .bf16)
    (x2 : FVec Ideal S64x100x100 .bf16) (x3 : FVec Ideal S64x100x64 .bf16) (x4 : FVec Ideal S12800x128 .bf16)
    (x5 : FVec Ideal S128 .f32) (x6 : FVec Ideal S128x1 .bf16) (x7 : FVec Ideal S1 .f32) (r : Fin 64) :
    k0_pay1 (F := Ideal) (k0_pay2 (F := Ideal) x0 x1 x2 x3 x4 x5 x6 x7) (ix2 r (0 : Fin 1))
      = score (flat (agg (fun k j => x0 (ix3 r k j)) (fun j d => x1 (ix3 r j d))))
          (flat (agg (fun k j => x2 (ix3 r k j)) (fun j d => x3 (ix3 r j d)))) x4 x5 x6 x7 := by
  unfold k0_pay1 k0_pay2
  refine (top_apply _ x6 x7 _ _ _ _ r).trans ?_
  unfold score
  refine congrArg Ideal.logistic (congrArg (fun t => max t (Ideal.ofBits .f32 0x00000000#32))
    (congrArg (fun t => t + x7 (ix1 (0 : Fin 1))) (Finset.sum_congr rfl fun n _ =>
      congrArg (fun t => t * x6 (ix2 n (0 : Fin 1))) ?_)))
  refine (hidden_apply _ _ x4 x5 _ _ _ _ _ r n).trans ?_
  exact congrArg₂ (fun a b => hidden a b x4 x5 n)
    (funext fun c => halfRow_apply x0 x1 _ _ _ _ r c) (funext fun c => halfRow_apply x2 x3 _ _ _ _ r c)

end Cert.KernelIdeal.BodyValue

end
-- ==== Proof.BlockValue.lean ====
/-
  From the kernel body's blocks to the program's result.

  The region runs the body at 128 points.  Point t stages rows 64 t … 64 t + 63 of the four gathered arrays, the
  whole of the two weight matrices and bias vectors, and writes back rows 64 t … 64 t + 63 of a [8192, 1] array.
  Row r of what the body stores is the row score of the staged blocks' row r (BodyScore), and a staged block's row r
  is row 64 t + r of its array, so what point t writes back is block t of ONE array: row b holds the score of batch
  row b.  Row b lies in the block of point b / 64, so the blocks tile the array and it ends holding exactly that.
  The one operation after the region drops the unit axis, which gives the vector of scores.
-/
import proofs.«177410_j57002805952924_2_alg».proof.Proof.Gen.KernelIdeal.Frame
import proofs.«177410_j57002805952924_2_alg».proof.Proof.RowScore
import proofs.«177410_j57002805952924_2_alg».proof.Proof.BodyScore
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.RowScore Cert.KernelIdeal.BodyValue

/-! ## Where each window's block sits -/

/-- The block index maps, decided over the 128 points: point t takes rows 64 t … 64 t + 63 of the four gathered
    arrays and of the result, and the whole of the two weight matrices and the two bias vectors. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 128 := lt_of_lt_of_eq t.isLt N_0

/-- Row `64 t + r` of the batch. -/
abbrev rowOf (t : Fin cfg0.N) (r : Fin 64) : Fin 8192 := ⟨64 * t.val + r.val, by have := t_lt t; have := r.isLt; omega⟩

/-! ## Blocks of an arbitrary array, read at an index -/

theorem read_w0 (A : S8192x100x100.Idx → EReal) (t : Fin cfg0.N) (r : Fin 64) (k j : Fin 100) :
    ((cfg0.win 0).blk t).view.read (Elt Ideal) A (ix3 r k j) = A (ix3 (rowOf t r) k j) := by
  obtain ⟨e0, e1, e2, -⟩ := idx_facts t
  show A (((cfg0.win 0).blk t).view.emb (ix3 r k j)) = _
  refine congrArg A (funext fun a => Fin.ext ?_)
  match a with
  | ⟨0, _⟩ => show win0_0.index t (0 : Fin 3) * 64 + 1 * r.val = 64 * t.val + r.val; omega
  | ⟨1, _⟩ => show win0_0.index t (1 : Fin 3) * 100 + 1 * k.val = k.val; omega
  | ⟨2, _⟩ => show win0_0.index t (2 : Fin 3) * 100 + 1 * j.val = j.val; omega

theorem read_w1 (A : S8192x100x64.Idx → EReal) (t : Fin cfg0.N) (r : Fin 64) (j : Fin 100) (d : Fin 64) :
    ((cfg0.win 1).blk t).view.read (Elt Ideal) A (ix3 r j d) = A (ix3 (rowOf t r) j d) := by
  obtain ⟨-, -, -, e0, e1, e2, -⟩ := idx_facts t
  show A (((cfg0.win 1).blk t).view.emb (ix3 r j d)) = _
  refine congrArg A (funext fun a => Fin.ext ?_)
  match a with
  | ⟨0, _⟩ => show win0_1.index t (0 : Fin 3) * 64 + 1 * r.val = 64 * t.val + r.val; omega
  | ⟨1, _⟩ => show win0_1.index t (1 : Fin 3) * 100 + 1 * j.val = j.val; omega
  | ⟨2, _⟩ => show win0_1.index t (2 : Fin 3) * 64 + 1 * d.val = d.val; omega

theorem read_w2 (A : S8192x100x100.Idx → EReal) (t : Fin cfg0.N) (r : Fin 64) (k j : Fin 100) :
    ((cfg0.win 2).blk t).view.read (Elt Ideal) A (ix3 r k j) = A (ix3 (rowOf t r) k j) := by
  obtain ⟨-, -, -, -, -, -, e0, e1, e2, -⟩ := idx_facts t
  show A (((cfg0.win 2).blk t).view.emb (ix3 r k j)) = _
  refine congrArg A (funext fun a => Fin.ext ?_)
  match a with
  | ⟨0, _⟩ => show win0_2.index t (0 : Fin 3) * 64 + 1 * r.val = 64 * t.val + r.val; omega
  | ⟨1, _⟩ => show win0_2.index t (1 : Fin 3) * 100 + 1 * k.val = k.val; omega
  | ⟨2, _⟩ => show win0_2.index t (2 : Fin 3) * 100 + 1 * j.val = j.val; omega

theorem read_w3 (A : S8192x100x64.Idx → EReal) (t : Fin cfg0.N) (r : Fin 64) (j : Fin 100) (d : Fin 64) :
    ((cfg0.win 3).blk t).view.read (Elt Ideal) A (ix3 r j d) = A (ix3 (rowOf t r) j d) := by
  obtain ⟨-, -, -, -, -, -, -, -, -, e0, e1, e2, -⟩ := idx_facts t
  show A (((cfg0.win 3).blk t).view.emb (ix3 r j d)) = _
  refine congrArg A (funext fun a => Fin.ext ?_)
  match a with
  | ⟨0, _⟩ => show win0_3.index t (0 : Fin 3) * 64 + 1 * r.val = 64 * t.val + r.val; omega
  | ⟨1, _⟩ => show win0_3.index t (1 : Fin 3) * 100 + 1 * j.val = j.val; omega
  | ⟨2, _⟩ => show win0_3.index t (2 : Fin 3) * 64 + 1 * d.val = d.val; omega

/-- The four windows that take their whole array at every point. -/
theorem read_w4 (A : S12800x128.Idx → EReal) (t : Fin cfg0.N) :
    ((cfg0.win 4).blk t).view.read (Elt Ideal) A = A := by
  obtain ⟨-, -, -, -, -, -, -, -, -, -, -, -, e0, e1, -⟩ := idx_facts t
  funext y
  show A (((cfg0.win 4).blk t).view.emb y) = A y
  refine congrArg A (funext fun a => Fin.ext ?_)
  match a with
  | ⟨0, _⟩ => show win0_4.index t (0 : Fin 2) * 12800 + 1 * (y 0).val = (y 0).val; omega
  | ⟨1, _⟩ => show win0_4.index t (1 : Fin 2) * 128 + 1 * (y 1).val = (y 1).val; omega

theorem read_w5 (A : S128.Idx → EReal) (t : Fin cfg0.N) :
    ((cfg0.win 5).blk t).view.read (Elt Ideal) A = A := by
  obtain ⟨-, -, -, -, -, -, -, -, -, -, -, -, -, -, e0, -⟩ := idx_facts t
  funext y
  show A (((cfg0.win 5).blk t).view.emb y) = A y
  refine congrArg A (funext fun a => Fin.ext ?_)
  match a with
  | ⟨0, _⟩ => show win0_5.index t (0 : Fin 1) * 128 + 1 * (y 0).val = (y 0).val; omega

theorem read_w6 (A : S128x1.Idx → EReal) (t : Fin cfg0.N) :
    ((cfg0.win 6).blk t).view.read (Elt Ideal) A = A := by
  obtain ⟨-, -, -, -, -, -, -, -, -, -, -, -, -, -, -, e0, e1, -⟩ := idx_facts t
  funext y
  show A (((cfg0.win 6).blk t).view.emb y) = A y
  refine congrArg A (funext fun a => Fin.ext ?_)
  match a with
  | ⟨0, _⟩ => show win0_6.index t (0 : Fin 2) * 128 + 1 * (y 0).val = (y 0).val; omega
  | ⟨1, _⟩ => show win0_6.index t (1 : Fin 2) * 1 + 1 * (y 1).val = (y 1).val; omega

theorem read_w7 (A : S1.Idx → EReal) (t : Fin cfg0.N) :
    ((cfg0.win 7).blk t).view.read (Elt Ideal) A = A := by
  obtain ⟨-, -, -, -, -, -, -, -, -, -, -, -, -, -, -, -, -, e0, -⟩ := idx_facts t
  funext y
  show A (((cfg0.win 7).blk t).view.emb y) = A y
  refine congrArg A (funext fun a => Fin.ext ?_)
  match a with
  | ⟨0, _⟩ => show win0_7.index t (0 : Fin 1) * 1 + 1 * (y 0).val = (y 0).val; omega

/-- Row r of the result's block at point t is row `64 t + r` of the result array. -/
theorem read_w8 (A : S8192x1.Idx → EReal) (t : Fin cfg0.N) (r : Fin 64) :
    ((cfg0.win 8).blk t).view.read (Elt Ideal) A (ix2 r (0 : Fin 1)) = A (ix2 (rowOf t r) (0 : Fin 1)) := by
  obtain ⟨-, -, -, -, -, -, -, -, -, -, -, -, -, -, -, -, -, -, e0, e1⟩ := idx_facts t
  show A (((cfg0.win 8).blk t).view.emb (ix2 r (0 : Fin 1))) = _
  refine congrArg A (funext fun a => Fin.ext ?_)
  match a with
  | ⟨0, _⟩ => show win0_8.index t (0 : Fin 2) * 64 + 1 * r.val = 64 * t.val + r.val; omega
  | ⟨1, _⟩ => show win0_8.index t (1 : Fin 2) * 1 + 1 * 0 = 0; omega

/-! ## The result array as one function of the staged arrays -/

/-- The [8192, 1] array the region writes: row b holds the score of batch row b. -/
def resultOf (SU : S8192x100x100.Idx → EReal) (EU : S8192x100x64.Idx → EReal) (SV : S8192x100x100.Idx → EReal)
    (EV : S8192x100x64.Idx → EReal) (W1 : S12800x128.Idx → EReal) (b1 : S128.Idx → EReal) (W2 : S128x1.Idx → EReal)
    (b2 : S1.Idx → EReal) : S8192x1.Idx → EReal :=
  fun i => rowScore SU EU SV EV W1 b1 W2 b2 ⟨(i 0).val, (i 0).isLt⟩

/-- Dropping the unit axis of that array gives the vector of scores. -/
theorem reshape_resultOf (SU : S8192x100x100.Idx → EReal) (EU : S8192x100x64.Idx → EReal) (SV : S8192x100x100.Idx → EReal)
    (EV : S8192x100x64.Idx → EReal) (W1 : S12800x128.Idx → EReal) (b1 : S128.Idx → EReal) (W2 : S128x1.Idx → EReal)
    (b2 : S1.Idx → EReal) :
    shapeCast S8192 (resultOf SU EU SV EV W1 b1 W2 b2) shapeCasts_S8192x1_S8192 = scores SU EU SV EV W1 b1 W2 b2 := by
  funext i
  exact shapeCast_apply (resultOf SU EU SV EV W1 b1 W2 b2) shapeCasts_S8192x1_S8192 i
    (ix2 (⟨(i 0).val, (i 0).isLt⟩ : Fin 8192) (0 : Fin 1))
    (by rewrite [Shape.rowMajor_val_two, Shape.rowMajor_val_one]; show (i 0).val * 1 + 0 = (i 0).val; omega)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- What point t writes back is block t of the result array: row r of the block is the body's value at the
    blocks' row r, and each staged block's row r is row `64 t + r` of its array. -/
theorem flushed_eq  (c : Dev nD) (t : Fin cfg0.N) :
    (dats m 0 c).flushed 8 t = ((cfg0.win 8).blk t).view.read (Elt Ideal) (resultOf (V m c main_v31) (V m c main_v24) (V m c main_v45) (V m c main_v38) (V m c main_v46) (V m c main_arg9) (V m c main_v47) (V m c main_arg11)) := by
  show (cfg0.win 8).cut (grid0.coords t) ((dats m 0 c).after 8 t) = _
  rw [after0_8]
  unfold out0_8
  rw [View.canon_unit_zero hz2]
  simp only [View.ld_unit_zero (S := S64x100x100) hz3, View.ld_unit_zero (S := S64x100x64) hz3,
    View.ld_unit_zero (S := S12800x128) hz2, View.ld_unit_zero (S := S128) hz1, View.ld_unit_zero (S := S128x1) hz2,
    View.ld_unit_zero (S := S1) hz1]
  funext j
  obtain ⟨r, q, rfl⟩ : ∃ (r : Fin 64) (q : Fin 1), j = ix2 r q := ⟨j 0, j 1, eq_ix2 j⟩
  obtain rfl : q = 0 := Subsingleton.elim _ _
  refine (body_score (iblk m c 0 t) (iblk m c 1 t) (iblk m c 2 t) (iblk m c 3 t) (iblk m c 4 t) (iblk m c 5 t)
    (iblk m c 6 t) (iblk m c 7 t) r).trans ?_
  refine Eq.trans ?_ (read_w8 (resultOf (V m c main_v31) (V m c main_v24) (V m c main_v45) (V m c main_v38) (V m c main_v46) (V m c main_arg9) (V m c main_v47) (V m c main_arg11)) t r).symm
  show _ = rowScore (V m c main_v31) (V m c main_v24) (V m c main_v45) (V m c main_v38) (V m c main_v46) (V m c main_arg9) (V m c main_v47) (V m c main_arg11) (rowOf t r)
  have h0 : (fun (k j : Fin 100) => iblk m c 0 t (ix3 r k j)) = fun k j => V m c main_v31 (ix3 (rowOf t r) k j) :=
    funext fun k => funext fun j => read_w0 (V m c main_v31) t r k j
  have h1 : (fun (j : Fin 100) (d : Fin 64) => iblk m c 1 t (ix3 r j d)) = fun j d => V m c main_v24 (ix3 (rowOf t r) j d) :=
    funext fun j => funext fun d => read_w1 (V m c main_v24) t r j d
  have h2 : (fun (k j : Fin 100) => iblk m c 2 t (ix3 r k j)) = fun k j => V m c main_v45 (ix3 (rowOf t r) k j) :=
    funext fun k => funext fun j => read_w2 (V m c main_v45) t r k j
  have h3 : (fun (j : Fin 100) (d : Fin 64) => iblk m c 3 t (ix3 r j d)) = fun j d => V m c main_v38 (ix3 (rowOf t r) j d) :=
    funext fun j => funext fun d => read_w3 (V m c main_v38) t r j d
  have h4 : iblk m c 4 t = V m c main_v46 := read_w4 (V m c main_v46) t
  have h5 : iblk m c 5 t = V m c main_arg9 := read_w5 (V m c main_arg9) t
  have h6 : iblk m c 6 t = V m c main_v47 := read_w6 (V m c main_v47) t
  have h7 : iblk m c 7 t = V m c main_arg11 := read_w7 (V m c main_arg11) t
  rw [h0, h1, h2, h3, h4, h5, h6, h7]
  rfl

/-! ## The blocks tile the result array -/

theorem mem_blk (t : Fin cfg0.N) (i : S8192x1.Idx) :
    i ∈ ((cfg0.win 8).blk t).view.set ↔ ∀ a : Fin 2, win0_8.index t a * S64x1.size a ≤ (i a).val ∧ (i a).val < win0_8.index t a * S64x1.size a + S64x1.size a := by
  show i ∈ ((View.whole main_v48).slice (win0_8.rect t)).set ↔ _
  rw [View.set_slice_whole, Rect.mem_set_unit]
  exact Iff.rfl

/-- Row b of the result lies in the block of point b / 64. -/
theorem cover (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  have hlt : (i 0).val / 64 < cfg0.N := lt_of_lt_of_eq (by omega : (i 0).val / 64 < 128) N_0.symm
  obtain ⟨-, -, -, -, -, -, -, -, -, -, -, -, -, -, -, -, -, -, e0, e1⟩ := idx_facts ⟨(i 0).val / 64, hlt⟩
  refine ⟨⟨(i 0).val / 64, hlt⟩, flush0_8 _, ?_⟩
  rw [mem_blk]
  intro a
  match a with
  | ⟨0, _⟩ =>
    show win0_8.index ⟨(i 0).val / 64, hlt⟩ (0 : Fin 2) * 64 ≤ (i 0).val ∧ (i 0).val < win0_8.index ⟨(i 0).val / 64, hlt⟩ (0 : Fin 2) * 64 + 64
    have e0' : win0_8.index ⟨(i 0).val / 64, hlt⟩ (0 : Fin 2) = (i 0).val / 64 := e0
    omega
  | ⟨1, _⟩ =>
    show win0_8.index ⟨(i 0).val / 64, hlt⟩ (1 : Fin 2) * 1 ≤ (i 1).val ∧ (i 1).val < win0_8.index ⟨(i 0).val / 64, hlt⟩ (1 : Fin 2) * 1 + 1
    omega

/-- The result array after the region. -/
theorem final  (c : Dev nD) : (dats m 0 c).arrAt 8 cfg0.N = resultOf (V m c main_v31) (V m c main_v24) (V m c main_v45) (V m c main_v38) (V m c main_v46) (V m c main_arg9) (V m c main_v47) (V m c main_arg11) :=
  (dats m 0 c).arrAt_eq_of_cover 8 (resultOf (V m c main_v31) (V m c main_v24) (V m c main_v45) (V m c main_v38) (V m c main_v46) (V m c main_arg9) (V m c main_v47) (V m c main_arg11)) (fun t _ => flushed_eq m c t) cover

/-! ## The reshape after the region, and the run -/

/-- The program's result: the region's array with its unit axis dropped. -/
theorem tail  (c : Dev nD) :
    Pipeline.afterTail₀ cfgs (dats m) 0 (V0 m) [hostOps1] c main_v49 = scores (V m c main_v31) (V m c main_v24) (V m c main_v45) (V m c main_v38) (V m c main_v46) (V m c main_arg9) (V m c main_v47) (V m c main_arg11) := by
  unfold Pipeline.afterTail₀
  show StableHlo.after hostOps1 _ (Proc.devRef .tc main_v49) = _
  after_results
  have hw := (Pipeline.withArrays_arr spec0 launch0.win.arr_inj c (V0 m c) (fun w => (dats m 0 c).arrAt w cfg0.N) 8).trans (final m c)
  refine Eq.trans ?_ (reshape_resultOf (V m c main_v31) (V m c main_v24) (V m c main_v45) (V m c main_v38) (V m c main_v46) (V m c main_arg9) (V m c main_v47) (V m c main_arg11))
  exact congrArg (fun A => shapeCast S8192 A shapeCasts_S8192x1_S8192) hw

set_option backward.isDefEq.respectTransparency.types false in
/-- Every weakly fair execution of the kernel's program ends with the vector of scores in its result and its
    arguments as they were. -/
theorem run  : θ_run defs (onTc (τ := τ) (main (F := Ideal))) ⟨m, fun _ => 0, ρ⟩ (fun r => ∀ c : Dev nD,
      r.2.mem ((c.tc : Thread nD τ).loc main_v49) = scores (V m c main_v31) (V m c main_v24) (V m c main_v45) (V m c main_v38) (V m c main_v46) (V m c main_arg9) (V m c main_v47) (V m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v49 (Pipeline.mem_restRefs_of main_v49 (by decide) (by decide))).trans (tail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 5).trans (((dats m 0 c).arrAt_in 5 rfl _).trans ((A_eq m c 5).trans (V_main_arg9 m c))),
      (((h c).2 main_arg10 (Pipeline.mem_restRefs_of main_arg10 (by decide) (by decide))).trans (W_main_arg10 m (dats m) c)),
      ((h c).1 7).trans (((dats m 0 c).arrAt_in 7 rfl _).trans ((A_eq m c 7).trans (V_main_arg11 m c)))⟩) (run_main m ρ)

end Cert.KernelIdeal.BlockValue

end
-- ==== Proof.RefScores.lean ====
/-
  The reference program's result is the row specification.

  The reference computes, for batch row b: the two aggregated rows (a batched product over 100 neighbours, on the user
  side and on the item side), each laid out flat as a row of length 6400; their join, a row of length 12800; the hidden
  layer, the product of the joined row with W1 plus the bias, ramped at 0; the output layer, the product with W2 plus
  the bias, ramped at 0; and the logistic function of that, written as 1 / (1 + e^(-x)).

  Read index by index, each stage is the corresponding piece of the specification: the flat position c of a
  100 x 64 row holds its entry (c / 64, c % 64); the joined row is the user row on positions below 6400 and the
  item row, shifted by 6400, from there on, so the sum over 12800 positions splits into the two sums over 6400; the
  rest is the same expression on both sides.  Only commutativity and associativity of addition are used.
-/
import proofs.«177410_j57002805952924_2_alg».proof.Proof.Gen.ReferenceIdeal.Read
import proofs.«177410_j57002805952924_2_alg».proof.Proof.RowScore
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The indices the stages read at, by coordinates -/

/-- The result's position b is row b, column 0 of the column of results. -/
theorem idx63 (b : Fin 8192) : idx_main_v63 (ix1 b) = ix2 b (0 : Fin 1) :=
  funext fun a => Fin.ext (by
    match a with
    | ⟨0, _⟩ => show b.val / 1 = b.val; omega
    | ⟨1, _⟩ => rfl)

/-- The output layer's product reads the hidden row b at n … -/
theorem lidx52 (b : Fin 8192) (k : Fin 128) : lidx_main_v52 (ix2 b (0 : Fin 1)) k = ix2 b k :=
  funext fun a => Fin.ext (by
    match a with
    | ⟨0, _⟩ => rfl
    | ⟨1, _⟩ => rfl)

/-- … against W2 at (n, 0). -/
theorem ridx52 (b : Fin 8192) (k : Fin 128) : ridx_main_v52 (ix2 b (0 : Fin 1)) k = ix2 k (0 : Fin 1) :=
  funext fun a => Fin.ext (by
    match a with
    | ⟨0, _⟩ => rfl
    | ⟨1, _⟩ => rfl)

/-- The output bias is read at its one position. -/
theorem idx54 (b : Fin 8192) : idx_main_v53 (idx_main_v54 (ix2 b (0 : Fin 1))) = ix1 (0 : Fin 1) :=
  funext fun a => Fin.ext (by
    match a with
    | ⟨0, _⟩ => rfl)

/-- The hidden layer's product reads the joined row b at k … -/
theorem lidx47 (b : Fin 8192) (n : Fin 128) (k : Fin 12800) : lidx_main_v47 (ix2 b n) k = ix2 b k :=
  funext fun a => Fin.ext (by
    match a with
    | ⟨0, _⟩ => rfl
    | ⟨1, _⟩ => rfl)

/-- … against W1 at (k, n). -/
theorem ridx47 (b : Fin 8192) (n : Fin 128) (k : Fin 12800) : ridx_main_v47 (ix2 b n) k = ix2 k n :=
  funext fun a => Fin.ext (by
    match a with
    | ⟨0, _⟩ => rfl
    | ⟨1, _⟩ => rfl)

/-- The hidden bias is read at n. -/
theorem idx49 (b : Fin 8192) (n : Fin 128) : idx_main_v48 (idx_main_v49 (ix2 b n)) = ix1 n :=
  funext fun a => Fin.ext (by
    match a with
    | ⟨0, _⟩ => rfl)

/-- Position c of the flat user row b is entry (c / 64, c % 64) of the aggregated row b. -/
theorem idx22 (b : Fin 8192) (c : Fin 6400) :
    idx_main_v22 (ix2 b c)
      = ix3 b (⟨c.val / 64, by have := c.isLt; omega⟩ : Fin 100) (⟨c.val % 64, by omega⟩ : Fin 64) :=
  funext fun a => Fin.ext (by
    have hc : c.val < 6400 := c.isLt
    match a with
    | ⟨0, _⟩ => show (b.val * 6400 + c.val) / 6400 = b.val; omega
    | ⟨1, _⟩ => show (b.val * 6400 + c.val) / 64 % 100 = c.val / 64; omega
    | ⟨2, _⟩ => show (b.val * 6400 + c.val) % 64 = c.val % 64; omega)

/-- The same on the item side. -/
theorem idx45 (b : Fin 8192) (c : Fin 6400) :
    idx_main_v45 (ix2 b c)
      = ix3 b (⟨c.val / 64, by have := c.isLt; omega⟩ : Fin 100) (⟨c.val % 64, by omega⟩ : Fin 64) :=
  funext fun a => Fin.ext (by
    have hc : c.val < 6400 := c.isLt
    match a with
    | ⟨0, _⟩ => show (b.val * 6400 + c.val) / 6400 = b.val; omega
    | ⟨1, _⟩ => show (b.val * 6400 + c.val) / 64 % 100 = c.val / 64; omega
    | ⟨2, _⟩ => show (b.val * 6400 + c.val) % 64 = c.val % 64; omega)

/-- Entry (k, d) of the aggregated row b multiplies the scores at (b, k, j) … -/
theorem lidx21 (b : Fin 8192) (k : Fin 100) (d : Fin 64) (j : Fin 100) : lidx_main_v21 (ix3 b k d) j = ix3 b k j :=
  funext fun a => Fin.ext (by
    match a with
    | ⟨0, _⟩ => rfl
    | ⟨1, _⟩ => rfl
    | ⟨2, _⟩ => rfl)

/-- … with the embeddings at (b, j, d). -/
theorem ridx21 (b : Fin 8192) (k : Fin 100) (d : Fin 64) (j : Fin 100) : ridx_main_v21 (ix3 b k d) j = ix3 b j d :=
  funext fun a => Fin.ext (by
    match a with
    | ⟨0, _⟩ => rfl
    | ⟨1, _⟩ => rfl
    | ⟨2, _⟩ => rfl)

/-- The same on the item side. -/
theorem lidx44 (b : Fin 8192) (k : Fin 100) (d : Fin 64) (j : Fin 100) : lidx_main_v44 (ix3 b k d) j = ix3 b k j :=
  funext fun a => Fin.ext (by
    match a with
    | ⟨0, _⟩ => rfl
    | ⟨1, _⟩ => rfl
    | ⟨2, _⟩ => rfl)

theorem ridx44 (b : Fin 8192) (k : Fin 100) (d : Fin 64) (j : Fin 100) : ridx_main_v44 (ix3 b k d) j = ix3 b j d :=
  funext fun a => Fin.ext (by
    match a with
    | ⟨0, _⟩ => rfl
    | ⟨1, _⟩ => rfl
    | ⟨2, _⟩ => rfl)

section
variable (x0 x1 : (⟨S8192, .i32⟩ : BufTy).Contents (Elt Ideal)) (x2 : (⟨S100000x100, .i32⟩ : BufTy).Contents (Elt Ideal))
  (x3 : (⟨S50000x100, .i32⟩ : BufTy).Contents (Elt Ideal)) (x4 : (⟨S100000x100, .f32⟩ : BufTy).Contents (Elt Ideal))
  (x5 : (⟨S50000x100, .f32⟩ : BufTy).Contents (Elt Ideal)) (x6 : (⟨S100000x64, .f32⟩ : BufTy).Contents (Elt Ideal))
  (x7 : (⟨S50000x64, .f32⟩ : BufTy).Contents (Elt Ideal)) (x8 : (⟨S12800x128, .f32⟩ : BufTy).Contents (Elt Ideal))
  (x9 : (⟨S128, .f32⟩ : BufTy).Contents (Elt Ideal)) (x10 : (⟨S128x1, .f32⟩ : BufTy).Contents (Elt Ideal))
  (x11 : (⟨S1, .f32⟩ : BufTy).Contents (Elt Ideal))

/-! ## The stages, from the result inwards -/

/-- The result at b is the logistic function of the ramped output-layer value of row b. -/
theorem result_at (b : Fin 8192) :
    val_main_v63 (F := Ideal) x0 x1 x2 x3 x4 x5 x6 x7 x8 x9 x10 x11 (ix1 b)
      = Ideal.logistic (max (val_main_v55 (F := Ideal) x0 x1 x2 x3 x4 x5 x6 x7 x8 x9 x10 x11 (ix2 b (0 : Fin 1)))
          (Ideal.ofBits .f32 0x00000000#32)) := by
  rw [val_main_v63_apply, val_main_v62_apply, val_main_v61_apply, val_main_cst_11_apply, val_main_v60_apply,
    val_main_v59_apply, val_main_cst_apply, val_main_v58_apply, val_main_v57_apply, val_main_v56_apply,
    val_main_call1_v0_apply, val_main_call1_cst_apply, idx63, Cert.RowScore.logistic_eq]
  generalize val_main_v55 (F := Ideal) x0 x1 x2 x3 x4 x5 x6 x7 x8 x9 x10 x11 (ix2 b (0 : Fin 1)) = y
  rfl

/-- The output-layer value of row b: the hidden row against the one column of W2, plus the bias. -/
theorem output_at (b : Fin 8192) :
    val_main_v55 (F := Ideal) x0 x1 x2 x3 x4 x5 x6 x7 x8 x9 x10 x11 (ix2 b (0 : Fin 1))
      = (∑ n : Fin 128, val_main_v51 (F := Ideal) x0 x1 x2 x3 x4 x5 x6 x7 x8 x9 (ix2 b n) * x10 (ix2 n (0 : Fin 1)))
        + x11 (ix1 (0 : Fin 1)) := by
  rw [val_main_v55_apply, val_main_v52_apply, val_main_v54_apply, val_main_v53_apply, idx54, Ideal.addf_def]
  refine congrArg (· + x11 (ix1 (0 : Fin 1))) (Finset.sum_congr rfl fun k _ => ?_)
  rw [lidx52, ridx52]

/-- The joined row at a position below 6400 is the flat user row there. -/
theorem joined_left (b : Fin 8192) (c : Fin 6400) :
    val_main_v46 (F := Ideal) x0 x1 x2 x3 x4 x5 x6 x7 (ix2 b (⟨c.val, by have := c.isLt; omega⟩ : Fin 12800))
      = val_main_v22 (F := Ideal) x0 x2 x4 x6 (ix2 b c) := by
  unfold val_main_v46
  generalize val_main_v22 (F := Ideal) x0 x2 x4 x6 = y1
  generalize val_main_v45 (F := Ideal) x1 x3 x5 x7 = y2
  exact concatenate_pair_apply_left (t := S8192x12800) (s₁ := S8192x6400) (s₂ := S8192x6400) 1 y1 y2 _
    (ix2 b (⟨c.val, by have := c.isLt; omega⟩ : Fin 12800)) rfl (ix2 b c) (fun a => by
    match a with
    | ⟨0, _⟩ => rfl
    | ⟨1, _⟩ => rfl)

/-- The joined row at position 6400 + c is the flat item row at c. -/
theorem joined_right (b : Fin 8192) (c : Fin 6400) :
    val_main_v46 (F := Ideal) x0 x1 x2 x3 x4 x5 x6 x7 (ix2 b (⟨6400 + c.val, by have := c.isLt; omega⟩ : Fin 12800))
      = val_main_v45 (F := Ideal) x1 x3 x5 x7 (ix2 b c) := by
  unfold val_main_v46
  generalize val_main_v22 (F := Ideal) x0 x2 x4 x6 = y1
  generalize val_main_v45 (F := Ideal) x1 x3 x5 x7 = y2
  exact concatenate_pair_apply_right (t := S8192x12800) (s₁ := S8192x6400) (s₂ := S8192x6400) 1 y1 y2 _
    (ix2 b (⟨6400 + c.val, by have := c.isLt; omega⟩ : Fin 12800)) rfl rfl (ix2 b c)
    (fun a ha => by
      match a with
      | ⟨0, _⟩ => rfl
      | ⟨1, _⟩ => exact absurd rfl ha)
    (by show c.val + 6400 = 6400 + c.val; omega)

/-- Hidden unit n of row b, from whatever the two flat rows are: the sum over the joined row splits into its halves. -/
theorem hidden_at (b : Fin 8192) (n : Fin 128) (xu xv : Fin 6400 → EReal)
    (hu : ∀ c : Fin 6400, val_main_v22 (F := Ideal) x0 x2 x4 x6 (ix2 b c) = xu c)
    (hv : ∀ c : Fin 6400, val_main_v45 (F := Ideal) x1 x3 x5 x7 (ix2 b c) = xv c) :
    val_main_v51 (F := Ideal) x0 x1 x2 x3 x4 x5 x6 x7 x8 x9 (ix2 b n) = Cert.RowScore.hidden xu xv x8 x9 n := by
  rw [val_main_v51_apply, val_main_v50_apply, val_main_v47_apply, val_main_v49_apply, val_main_v48_apply,
    val_main_call0_v0_apply, val_main_call0_cst_apply, idx49, Cert.RowScore.sum_halves]
  unfold Cert.RowScore.hidden
  rw [Ideal.maximumf_def, Ideal.addf_def, Ideal.ofBits_def]
  refine congrArg (fun t => max (t + x9 (ix1 n)) (Ideal.ofBits .f32 0x00000000#32)) ?_
  refine congrArg₂ (· + ·) (Finset.sum_congr rfl fun c _ => ?_) (Finset.sum_congr rfl fun c _ => ?_)
  · rw [lidx47, ridx47, joined_left, hu]
  · rw [lidx47, ridx47, joined_right, hv]

/-- The flat user row b is the flattened aggregate of the gathered scores and embeddings of row b. -/
theorem user_row_at (b : Fin 8192) (c : Fin 6400) :
    val_main_v22 (F := Ideal) x0 x2 x4 x6 (ix2 b c)
      = Cert.RowScore.flat (Cert.RowScore.agg (fun k j => val_main_v20 (F := Ideal) x0 x2 x4 (ix3 b k j))
          (fun j d => val_main_v13 (F := Ideal) x0 x2 x6 (ix3 b j d))) c := by
  rw [val_main_v22_apply, idx22, val_main_v21_apply]
  unfold Cert.RowScore.flat Cert.RowScore.agg
  refine Finset.sum_congr rfl fun j _ => ?_
  rw [lidx21, ridx21]

/-- The flat item row b, likewise. -/
theorem item_row_at (b : Fin 8192) (c : Fin 6400) :
    val_main_v45 (F := Ideal) x1 x3 x5 x7 (ix2 b c)
      = Cert.RowScore.flat (Cert.RowScore.agg (fun k j => val_main_v43 (F := Ideal) x1 x3 x5 (ix3 b k j))
          (fun j d => val_main_v36 (F := Ideal) x1 x3 x7 (ix3 b j d))) c := by
  rw [val_main_v45_apply, idx45, val_main_v44_apply]
  unfold Cert.RowScore.flat Cert.RowScore.agg
  refine Finset.sum_congr rfl fun j _ => ?_
  rw [lidx44, ridx44]

end

/-- The specification's result at position b is the row result of row b. -/
theorem scores_at (SU : (⟨3, ![8192, 100, 100]⟩ : Shape).Idx → EReal) (EU : (⟨3, ![8192, 100, 64]⟩ : Shape).Idx → EReal)
    (SV : (⟨3, ![8192, 100, 100]⟩ : Shape).Idx → EReal) (EV : (⟨3, ![8192, 100, 64]⟩ : Shape).Idx → EReal)
    (W1 : (⟨2, ![12800, 128]⟩ : Shape).Idx → EReal) (b1 : (⟨1, ![128]⟩ : Shape).Idx → EReal)
    (W2 : (⟨2, ![128, 1]⟩ : Shape).Idx → EReal) (b2 : (⟨1, ![1]⟩ : Shape).Idx → EReal) (b : Fin 8192) :
    Cert.RowScore.scores SU EU SV EV W1 b1 W2 b2 (ix1 b) = Cert.RowScore.rowScore SU EU SV EV W1 b1 W2 b2 b := rfl

/-! ## The reference's result is the specification -/

open Cert.ReferenceIdeal Cert.ReferenceIdeal.Read in
theorem ref_scores (x0 x1 : (⟨S8192, .i32⟩ : BufTy).Contents (Elt Ideal)) (x2 : (⟨S100000x100, .i32⟩ : BufTy).Contents (Elt Ideal)) (x3 : (⟨S50000x100, .i32⟩ : BufTy).Contents (Elt Ideal)) (x4 : (⟨S100000x100, .f32⟩ : BufTy).Contents (Elt Ideal)) (x5 : (⟨S50000x100, .f32⟩ : BufTy).Contents (Elt Ideal)) (x6 : (⟨S100000x64, .f32⟩ : BufTy).Contents (Elt Ideal)) (x7 : (⟨S50000x64, .f32⟩ : BufTy).Contents (Elt Ideal)) (x8 : (⟨S12800x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v63 (F := Ideal) x0 x1 x2 x3 x4 x5 x6 x7 x8 x9 x10 x11
      = Cert.RowScore.scores (val_main_v20 (F := Ideal) x0 x2 x4) (val_main_v13 (F := Ideal) x0 x2 x6) (val_main_v43 (F := Ideal) x1 x3 x5) (val_main_v36 (F := Ideal) x1 x3 x7) x8 x9 x10 x11 := by
  funext i
  obtain ⟨b, rfl⟩ : ∃ b : Fin 8192, i = ix1 b := ⟨i 0, eq_ix1 i⟩
  rw [scores_at, result_at, output_at]
  unfold Cert.RowScore.rowScore Cert.RowScore.score
  refine congrArg (fun t => Ideal.logistic (max (t + x11 (ix1 (0 : Fin 1))) (Ideal.ofBits .f32 0x00000000#32)))
    (Finset.sum_congr rfl fun n _ => ?_)
  rw [hidden_at x0 x1 x2 x3 x4 x5 x6 x7 x8 x9 b n _ _ (user_row_at x0 x2 x4 x6 b) (item_row_at x1 x3 x5 x7 b)]

end Cert.ReferenceIdeal.RefValue

end
-- ==== Proof.lean ====
/-
  The certificate of the fused neighbour-aggregation and scoring kernel against its plain reference.

  Both programs gather, for each of 8192 batch rows, the score rows and embedding rows of the row's hundred
  neighbours on the user side and on the item side, aggregate each side (a 100 × 100 by 100 × 64 product per row),
  lay the two aggregates flat side by side as one row of length 12800, and pass it through a hidden layer of 128
  units, a ramp, an output unit, a ramp and the logistic function.  The kernel works on 64 rows at a time, keeps its
  operands in bfloat16 — on the extended reals a change of format is the identity — and takes the product of the
  joined row with the first weight matrix as the sum of two products of its halves with the halves of the matrix,
  where the reference joins the halves first: a finite sum split at its middle, which needs only that addition is
  commutative and associative, so nothing is assumed of the inputs beyond what the statement gives.

  RowScore states one row's result as a function on the extended reals.  BodyScore shows the kernel body's stored
  value at a row of its block is that function of the blocks' rows; BlockValue places the blocks in their arrays,
  shows the 128 blocks tile the result and follows the reshape after the region to the program's result;
  EntryArrays identifies the arrays the region stages with the reference's gathered arrays; RefScores reads the
  reference's result, operation by operation, as the same function.  The frames of the two kernel programs are the
  generated ones, the reference's is its generated run, and the idealization rewrote nothing.
-/
import proofs.«177410_j57002805952924_2_alg».proof.Defs
import proofs.«177410_j57002805952924_2_alg».proof.Proof.Gen.Kernel
import proofs.«177410_j57002805952924_2_alg».proof.Proof.Gen.Kernel.Skeleton
import proofs.«177410_j57002805952924_2_alg».proof.Proof.Gen.Kernel.Launch
import proofs.«177410_j57002805952924_2_alg».proof.Proof.Gen.Kernel.Points
import proofs.«177410_j57002805952924_2_alg».proof.Proof.Gen.Kernel.Frame
import proofs.«177410_j57002805952924_2_alg».proof.Proof.Gen.KernelIdeal
import proofs.«177410_j57002805952924_2_alg».proof.Proof.Gen.KernelIdeal.Skeleton
import proofs.«177410_j57002805952924_2_alg».proof.Proof.Gen.KernelIdeal.Launch
import proofs.«177410_j57002805952924_2_alg».proof.Proof.Gen.KernelIdeal.Points
import proofs.«177410_j57002805952924_2_alg».proof.Proof.Gen.KernelIdeal.Frame
import proofs.«177410_j57002805952924_2_alg».proof.Proof.Gen.ReferenceIdeal
import proofs.«177410_j57002805952924_2_alg».proof.Proof.Gen.Pre_finite_inputs
import proofs.«177410_j57002805952924_2_alg».proof.Proof.Gen.ReferenceIdeal.Run
import proofs.«177410_j57002805952924_2_alg».proof.Proof.Gen.ReferenceIdeal.Read
import proofs.«177410_j57002805952924_2_alg».proof.Proof.RowScore
import proofs.«177410_j57002805952924_2_alg».proof.Proof.EntryArrays
import proofs.«177410_j57002805952924_2_alg».proof.Proof.BodyScore
import proofs.«177410_j57002805952924_2_alg».proof.Proof.BlockValue
import proofs.«177410_j57002805952924_2_alg».proof.Proof.RefScores
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the vector of row scores of the same gathered arrays, weights and biases. -/
theorem algebraic : Cert.algebraic_KernelIdeal_ReferenceIdeal := by
  intro m ρ m' ρ' _ hagree
  refine ⟨fun c => Cert.RowScore.scores
      (Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)))
      (Cert.ReferenceIdeal.Read.val_main_v43 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)))
      (Cert.ReferenceIdeal.Read.val_main_v36 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.BlockValue.run m ρ)
    rw [Cert.KernelIdeal.Entry.scores_user m c, Cert.KernelIdeal.Entry.embeddings_user m c,
      Cert.KernelIdeal.Entry.scores_item m c, Cert.KernelIdeal.Entry.embeddings_item m c,
      Cert.KernelIdeal.Entry.weights_hidden m c, Cert.KernelIdeal.Entry.weights_out m c,
      Cert.KernelIdeal.Gen.V_main_arg9 m c, Cert.KernelIdeal.Gen.V_main_arg11 m c]
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v63_eq, Cert.ReferenceIdeal.RefValue.ref_scores,
      e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
